-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S16x11 : Shape := ⟨2, ![16, 11]⟩
abbrev S11 : Shape := ⟨1, ![11]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x11 : S_.BroadcastsInDim S16x11 (![] : Fin 0 → Fin S16x11.rank)
  reducesTo_S16x11_S_d0_1 : S16x11.ReducesTo [0, 1] S_
  bcast_S_S11 : S_.BroadcastsInDim S11 (![] : Fin 0 → Fin S11.rank)
  reducesTo_S11_S_d0 : S11.ReducesTo [0] S_

variable [Facts]

def fn_part1 {F : FTy → Type} [FloatOps F] (main_arg5 : FVec F S16 .f32) (main_arg6 : FVec F S16x11 .f32) (main_arg7 : FVec F S11 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x11 .f32 := Host.absf main_arg6
  let main_cst_8 : FVec F S_ .f32 := constant S_ .f32 0x7F800000#32
  let main_v25 : FVec F S16x11 .f32 := broadcastInDim S16x11 ![] bcast_S_S16x11 main_cst_8
  let main_v26 : IVec S16x11 1 := cmpf .olt main_v24 main_v25
  let main_c_9 : IVec S_ 1 := constantI S_ 1 1#1
  let main_v27 : IVec S_ 1 := (fun x v => Host.reduce IntOp.andi x v reducesTo_S16x11_S_d0_1 h_S_) main_v26 main_c_9
  let main_v28 : IVec S_ 1 := andi main_v23 main_v27
  let main_v29 : FVec F S11 .f32 := Host.absf main_arg7
  let main_cst_10 : FVec F S_ .f32 := constant S_ .f32 0x7F800000#32
  let main_v30 : FVec F S11 .f32 := broadcastInDim S11 ![] bcast_S_S11 main_cst_10
  let main_v31 : IVec S11 1 := cmpf .olt main_v29 main_v30
  let main_c_11 : IVec S_ 1 := constantI S_ 1 1#1
  let main_v32 : IVec S_ 1 := (fun x v => Host.reduce IntOp.andi x v reducesTo_S11_S_d0 h_S_) main_v31 main_c_11
  let main_v33 : IVec S_ 1 := andi main_v28 main_v32
  main_v33

def fn {F : FTy → Type} [FloatOps F] (main_arg0 : FVec F S100000x512 .f32) (main_arg1 : IVec S2x3200000 32) (main_arg2 : FVec F S512x32 .f32) (main_arg3 : FVec F S32 .f32) (main_arg4 : FVec F S32x16 .f32) (main_arg5 : FVec F S16 .f32) (main_arg6 : FVec F S16x11 .f32) (main_arg7 : FVec F S11 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x32 .f32 := Host.absf main_arg2
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_arg6 main_arg7 main_v13 main_v16
-- ==== Kernel.lean ====
abbrev S100000x512 : Shape := ⟨2, ![100000, 512]⟩
abbrev S2x3200000 : Shape := ⟨2, ![2, 3200000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S16x11 : Shape := ⟨2, ![16, 11]⟩
abbrev S11 : Shape := ⟨1, ![11]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x32 : Shape := ⟨2, ![100000, 32]⟩
abbrev S5000x512 : Shape := ⟨2, ![5000, 512]⟩
abbrev S5000x32 : Shape := ⟨2, ![5000, 32]⟩
abbrev S3200000x32 : Shape := ⟨2, ![3200000, 32]⟩
abbrev S5000x1 : Shape := ⟨2, ![5000, 1]⟩
abbrev S1x32 : Shape := ⟨2, ![1, 32]⟩
abbrev S100000x16 : Shape := ⟨2, ![100000, 16]⟩
abbrev S5000x16 : Shape := ⟨2, ![5000, 16]⟩
abbrev S3200000x16 : Shape := ⟨2, ![3200000, 16]⟩
abbrev S1x16 : Shape := ⟨2, ![1, 16]⟩
abbrev S100000x11 : Shape := ⟨2, ![100000, 11]⟩
abbrev S5000x11 : Shape := ⟨2, ![5000, 11]⟩
abbrev S3200000x11 : Shape := ⟨2, ![3200000, 11]⟩
abbrev S1x11 : Shape := ⟨2, ![1, 11]⟩

abbrev nBuf : Space → Nat
  | .hbm => 110
  | .vmem => 42
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x11, .f32⟩
  | .hbm, ⟨7, _⟩ => ⟨S11, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000, .f32⟩
  | .hbm, ⟨42, _⟩ => ⟨S3200000, .f32⟩
  | .hbm, ⟨43, _⟩ => ⟨S3200000x1, .f32⟩
  | .hbm, ⟨44, _⟩ => ⟨S100000x32, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x32, .f32⟩
  | .hbm, ⟨54, _⟩ => ⟨S3200000x32, .f32⟩
  | .hbm, ⟨55, _⟩ => ⟨S3200000x32, .f32⟩
  | .hbm, ⟨56, _⟩ => ⟨S_, .f32⟩
  | .hbm, ⟨57, _⟩ => ⟨S100000x32, .f32⟩
  | .hbm, ⟨58, _⟩ => ⟨S3200000x1, .i32⟩
  | .hbm, ⟨59, _⟩ => ⟨S100000x32, .f32⟩
  | .hbm, ⟨60, _⟩ => ⟨S100000x32, .f32⟩
  | .hbm, ⟨61, _⟩ => ⟨S100000x16, .f32⟩
  | .hbm, ⟨62, _⟩ => ⟨S_, .i32⟩
  | .hbm, ⟨63, _⟩ => ⟨S3200000, .i32⟩
  | .hbm, ⟨64, _⟩ => ⟨S3200000, .i1⟩
  | .hbm, ⟨65, _⟩ => ⟨S_, .i32⟩
  | .hbm, ⟨66, _⟩ => ⟨S3200000, .i32⟩
  | .hbm, ⟨67, _⟩ => ⟨S3200000, .i32⟩
  | .hbm, ⟨68, _⟩ => ⟨S3200000, .i32⟩
  | .hbm, ⟨69, _⟩ => ⟨S3200000x1, .i32⟩
  | .hbm, ⟨70, _⟩ => ⟨S3200000x16, .f32⟩
  | .hbm, ⟨71, _⟩ => ⟨S3200000x16, .f32⟩
  | .hbm, ⟨72, _⟩ => ⟨S3200000x16, .f32⟩
  | .hbm, ⟨73, _⟩ => ⟨S_, .f32⟩
  | .hbm, ⟨74, _⟩ => ⟨S100000x16, .f32⟩
  | .hbm, ⟨75, _⟩ => ⟨S3200000x1, .i32⟩
  | .hbm, ⟨76, _⟩ => ⟨S100000x16, .f32⟩
  | .hbm, ⟨77, _⟩ => ⟨S100000x16, .f32⟩
  | .hbm, ⟨78, _⟩ => ⟨S100000x11, .f32⟩
  | .hbm, ⟨79, _⟩ => ⟨S_, .i32⟩
  | .hbm, ⟨80, _⟩ => ⟨S3200000, .i32⟩
  | .hbm, ⟨81, _⟩ => ⟨S3200000, .i1⟩
  | .hbm, ⟨82, _⟩ => ⟨S_, .i32⟩
  | .hbm, ⟨83, _⟩ => ⟨S3200000, .i32⟩
  | .hbm, ⟨84, _⟩ => ⟨S3200000, .i32⟩
  | .hbm, ⟨85, _⟩ => ⟨S3200000, .i32⟩
  | .hbm, ⟨86, _⟩ => ⟨S3200000x1, .i32⟩
  | .hbm, ⟨87, _⟩ => ⟨S3200000x11, .f32⟩
  | .hbm, ⟨88, _⟩ => ⟨S3200000x11, .f32⟩
  | .hbm, ⟨89, _⟩ => ⟨S3200000x11, .f32⟩
  | .hbm, ⟨90, _⟩ => ⟨S_, .f32⟩
  | .hbm, ⟨91, _⟩ => ⟨S100000x11, .f32⟩
  | .hbm, ⟨92, _⟩ => ⟨S3200000x1, .i32⟩
  | .hbm, ⟨93, _⟩ => ⟨S100000x11, .f32⟩
  | .hbm, ⟨94, _⟩ => ⟨S100000x11, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x11, .f32⟩
  | .hbm, ⟨102, _⟩ => ⟨S100000x11, .f32⟩
  | .hbm, ⟨103, _⟩ => ⟨S100000x11, .f32⟩
  | .hbm, ⟨104, _⟩ => ⟨S_, .f32⟩
  | .hbm, ⟨105, _⟩ => ⟨S100000, .f32⟩
  | .hbm, ⟨106, _⟩ => ⟨S100000x1, .f32⟩
  | .hbm, ⟨107, _⟩ => ⟨S100000x1, .f32⟩
  | .hbm, ⟨108, _⟩ => ⟨S100000x11, .f32⟩
  | .hbm, ⟨109, _⟩ => ⟨S100000x11, .f32⟩
  | .local _ .vmem, ⟨0, _⟩ => ⟨S5000x512, .f32⟩
  | .local _ .vmem, ⟨1, _⟩ => ⟨S5000x512, .f32⟩
  | .local _ .vmem, ⟨2, _⟩ => ⟨S512x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S32x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x1, .f32⟩
  | .local _ .vmem, ⟨24, _⟩ => ⟨S5000x1, .f32⟩
  | .local _ .vmem, ⟨25, _⟩ => ⟨S16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | .local _ .vmem, ⟨29, _⟩ => ⟨S5000x16, .f32⟩
  | .local _ .vmem, ⟨30, _⟩ => ⟨S16x11, .f32⟩
  | .local _ .vmem, ⟨31, _⟩ => ⟨S5000x11, .f32⟩
  | .local _ .vmem, ⟨32, _⟩ => ⟨S5000x11, .f32⟩
  | .local _ .vmem, ⟨33, _⟩ => ⟨S5000x11, .f32⟩
  | .local _ .vmem, ⟨34, _⟩ => ⟨S5000x11, .f32⟩
  | .local _ .vmem, ⟨35, _⟩ => ⟨S5000x11, .f32⟩
  | .local _ .vmem, ⟨36, _⟩ => ⟨S5000x11, .f32⟩
  | .local _ .vmem, ⟨37, _⟩ => ⟨S5000x1, .f32⟩
  | .local _ .vmem, ⟨38, _⟩ => ⟨S5000x1, .f32⟩
  | .local _ .vmem, ⟨39, _⟩ => ⟨S11, .f32⟩
  | .local _ .vmem, ⟨40, _⟩ => ⟨S5000x11, .f32⟩
  | .local _ .vmem, ⟨41, _⟩ => ⟨S5000x11, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call0_cst : Ref sig .tc := ⟨.hbm, 95, rfl⟩
abbrev main_call0_v0 : Ref sig .tc := ⟨.hbm, 96, rfl⟩
abbrev main_call0_cst_0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_v6 : Ref sig .tc := ⟨.hbm, 103, rfl⟩
abbrev main_call0_cst_1 : Ref sig .tc := ⟨.hbm, 104, rfl⟩
abbrev main_call0_v7 : Ref sig .tc := ⟨.hbm, 105, rfl⟩
abbrev main_call0_v8 : Ref sig .tc := ⟨.hbm, 106, rfl⟩
abbrev main_call0_v9 : Ref sig .tc := ⟨.hbm, 107, rfl⟩
abbrev main_call0_v10 : Ref sig .tc := ⟨.hbm, 108, rfl⟩
abbrev main_v71 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x11 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x11 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x11 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x11 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S11 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x11 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  shapeCasts_S3200000_S3200000x1 : S3200000.ShapeCasts S3200000x1
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S5000x32_S5000x32_0_0 : ∀ a, (![0, 0] : Fin 2 → Nat) a + S5000x32.size a ≤ S5000x32.size a
  h_S5000x32 : 0 < S5000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S32_S32_0 : ∀ a, (![0] : Fin 1 → Nat) a + S32.size a ≤ S32.size a
  h_S32 : 0 < S32.numel
  shapeCasts_S32_S1x32 : S32.ShapeCasts S1x32
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S5000x16_S5000x16 : S5000x16.ShapeCasts S5000x16
  broadcasts_S5000x1_S5000x16 : S5000x1.Broadcasts S5000x16
  inb_S16_S16_0 : ∀ a, (![0] : Fin 1 → Nat) a + S16.size a ≤ S16.size a
  h_S16 : 0 < S16.numel
  shapeCasts_S16_S1x16 : S16.ShapeCasts S1x16
  shapeCasts_S1x16_S1x16 : S1x16.ShapeCasts S1x16
  broadcasts_S1x16_S5000x16 : S1x16.Broadcasts S5000x16
  inb_S16x11_S16x11_0_0 : ∀ a, (![0, 0] : Fin 2 → Nat) a + S16x11.size a ≤ S16x11.size a
  h_S16x11 : 0 < S16x11.numel
  inb_S5000x11_S5000x11_0_0 : ∀ a, (![0, 0] : Fin 2 → Nat) a + S5000x11.size a ≤ S5000x11.size a
  h_S5000x11 : 0 < S5000x11.numel
  bcast_S3200000x1_S3200000x11_0_1 : S3200000x1.BroadcastsInDim S3200000x11 (![0, 1] : Fin 2 → Fin S3200000x11.rank)
  bcast_S_S100000x11 : S_.BroadcastsInDim S100000x11 (![] : Fin 0 → Fin S100000x11.rank)
  shapeCasts_S5000x11_S5000x11 : S5000x11.ShapeCasts S5000x11
  broadcasts_S5000x1_S5000x11 : S5000x1.Broadcasts S5000x11
  inb_S11_S11_0 : ∀ a, (![0] : Fin 1 → Nat) a + S11.size a ≤ S11.size a
  h_S11 : 0 < S11.numel
  shapeCasts_S11_S1x11 : S11.ShapeCasts S1x11
  shapeCasts_S1x11_S1x11 : S1x11.ShapeCasts S1x11
  broadcasts_S1x11_S5000x11 : S1x11.Broadcasts S5000x11
  reducesTo_S100000x11_S100000_d1 : S100000x11.ReducesTo [1] S100000
  h_S_ : 0 < S_.numel
  bcast_S100000_S100000x1_0 : S100000.BroadcastsInDim S100000x1 (![0] : Fin 1 → Fin S100000x1.rank)
  bcast_S100000x1_S100000x11_0_1 : S100000x1.BroadcastsInDim S100000x11 (![0, 1] : Fin 2 → Fin S100000x11.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x512_S512x32_S5000x32_1_0_0_1_n_n_wf : DotDims.WF S5000x512 S512x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x16_S5000x16_1_0_0_1_n_n_wf : DotDims.WF S5000x32 S32x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x11_S5000x11_1_0_0_1_n_n_wf : DotDims.WF S5000x16 S16x11 S5000x11 [1] [0] [0] [1] [] []
  gather_S100000x11_S3200000x1_S3200000x11_1_0_n_n_0_1_111_wf : GatherDims.WF S100000x11 S3200000x1 S3200000x11 [1] [0] [] [0] [] 1 ![1, 11]
  scatter_S100000x11_S3200000x1_S3200000x11_1_0_0_1_wf : ScatterDims.WF S100000x11 S3200000x1 S3200000x11 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16.size a ≤ S16.size a
  hwx3_3 : ∀ i : grid3.Coords, EltTy.bits .f32 = 32 ∨ (Rect.block (s := S16) S16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x16.size a ≤ S100000x16.size a
  hwx3_4 : ∀ i : grid3.Coords, EltTy.bits .f32 = 32 ∨ (Rect.block (s := S100000x16) S5000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S100000x16.size a
  hwx4_0 : ∀ i : grid4.Coords, EltTy.bits .f32 = 32 ∨ (Rect.block (s := S100000x16) S5000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x11.size a ≤ S16x11.size a
  hwx4_1 : ∀ i : grid4.Coords, EltTy.bits .f32 = 32 ∨ (Rect.block (s := S16x11) S16x11.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x11.size a ≤ S100000x11.size a
  hwx4_2 : ∀ i : grid4.Coords, EltTy.bits .f32 = 32 ∨ (Rect.block (s := S100000x11) S5000x11.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x11.size a ≤ S100000x11.size a
  hwx5_0 : ∀ i : grid5.Coords, EltTy.bits .f32 = 32 ∨ (Rect.block (s := S100000x11) S5000x11.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x11.size a ≤ S100000x11.size a
  hwx5_1 : ∀ i : grid5.Coords, EltTy.bits .f32 = 32 ∨ (Rect.block (s := S100000x11) S5000x11.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S11.size a ≤ S11.size a
  hwx5_3 : ∀ i : grid5.Coords, EltTy.bits .f32 = 32 ∨ (Rect.block (s := S11) S11.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x11.size a ≤ S100000x11.size a
  hwx5_4 : ∀ i : grid5.Coords, EltTy.bits .f32 = 32 ∨ (Rect.block (s := S100000x11) S5000x11.size (cc5_transform_4 i) (hinb5_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x512_S512x32_S5000x32_1_0_0_1_n_n : DotDims S5000x512 S512x32 S5000x32 where
  lhsContracting := [1]
  rhsContracting := [0]
  lhsNonContracting := [0]
  rhsNonContracting := [1]
  lhsBatch := []
  rhsBatch := []
  wf := dot_S5000x512_S512x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x11_S5000x11_1_0_0_1_n_n : DotDims S5000x16 S16x11 S5000x11 where
  lhsContracting := [1]
  rhsContracting := [0]
  lhsNonContracting := [0]
  rhsNonContracting := [1]
  lhsBatch := []
  rhsBatch := []
  wf := dot_S5000x16_S16x11_S5000x11_1_0_0_1_n_n_wf
def gather_S100000x11_S3200000x1_S3200000x11_1_0_n_n_0_1_111 : GatherDims S100000x11 S3200000x1 S3200000x11 where
  offsetDims := [1]
  collapsedSliceDims := [0]
  operandBatchingDims := []
  startIndicesBatchingDims := []
  startIndexMap := [0]
  indexVectorDim := 1
  sliceSizes := ![1, 11]
  wf := gather_S100000x11_S3200000x1_S3200000x11_1_0_n_n_0_1_111_wf
def scatter_S100000x11_S3200000x1_S3200000x11_1_0_0_1 : ScatterDims S100000x11 S3200000x1 S3200000x11 where
  updateWindowDims := [1]
  insertedWindowDims := [0]
  scatterDimsToOperandDims := [0]
  indexVectorDim := 1
  wf := scatter_S100000x11_S3200000x1_S3200000x11_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S5000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v56) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x11.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S5000x11.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v69) S5000x11.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S5000x11.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S11.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S5000x11.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S16x11 : Shape := ⟨2, ![16, 11]⟩
abbrev S11 : Shape := ⟨1, ![11]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x32 : Shape := ⟨2, ![100000, 32]⟩
abbrev S3200000x32 : Shape := ⟨2, ![3200000, 32]⟩
abbrev S100000x1 : Shape := ⟨2, ![100000, 1]⟩
abbrev S1x32 : Shape := ⟨2, ![1, 32]⟩
abbrev S100000x16 : Shape := ⟨2, ![100000, 16]⟩
abbrev S3200000x16 : Shape := ⟨2, ![3200000, 16]⟩
abbrev S1x16 : Shape := ⟨2, ![1, 16]⟩
abbrev S100000x11 : Shape := ⟨2, ![100000, 11]⟩
abbrev S3200000x11 : Shape := ⟨2, ![3200000, 11]⟩
abbrev S1x11 : Shape := ⟨2, ![1, 11]⟩

abbrev nBuf : Space → Nat
  | .hbm => 175
  | .vmem => 0
  | .smem => 0
  | _ => 0

abbrev hbmTy0_0 (i : Nat) : BufTy := match i % 128 with
  | 0 => ⟨S100000x512, .f32⟩
  | 1 => ⟨S2x3200000, .i32⟩
  | 2 => ⟨S512x32, .f32⟩
  | 3 => ⟨S32, .f32⟩
  | 4 => ⟨S32x16, .f32⟩
  | 5 => ⟨S16, .f32⟩
  | 6 => ⟨S16x11, .f32⟩
  | 7 => ⟨S11, .f32⟩
  | 8 => ⟨S1x3200000, .i32⟩
  | 9 => ⟨S3200000, .i32⟩
  | 10 => ⟨S1x3200000, .i32⟩
  | 11 => ⟨S3200000, .i32⟩
  | 12 => ⟨S_, .f32⟩
  | 13 => ⟨S3200000, .f32⟩
  | 14 => ⟨S_, .f32⟩
  | 15 => ⟨S100000, .f32⟩
  | 16 => ⟨S3200000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x32, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x32, .f32⟩
  | 51 => ⟨S3200000x1, .f32⟩
  | 52 => ⟨S3200000x32, .f32⟩
  | 53 => ⟨S3200000x32, .f32⟩
  | 54 => ⟨S_, .f32⟩
  | 55 => ⟨S100000x32, .f32⟩
  | 56 => ⟨S3200000x1, .i32⟩
  | 57 => ⟨S100000x32, .f32⟩
  | 58 => ⟨S100000, .f32⟩
  | 59 => ⟨S100000x1, .f32⟩
  | 60 => ⟨S100000x32, .f32⟩
  | 61 => ⟨S100000x32, .f32⟩
  | 62 => ⟨S100000x32, .f32⟩
  | 63 => ⟨S1x32, .f32⟩
  | 64 => ⟨S100000x32, .f32⟩
  | 65 => ⟨S100000x32, .f32⟩
  | 66 => ⟨S_, .f32⟩
  | 67 => ⟨S100000x32, .f32⟩
  | 68 => ⟨S100000x32, .f32⟩
  | 69 => ⟨S100000x16, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3200000, .f32⟩
  | 88 => ⟨S3200000, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000x16, .f32⟩
  | 98 => ⟨S3200000x1, .f32⟩
  | 99 => ⟨S3200000x16, .f32⟩
  | 100 => ⟨S3200000x16, .f32⟩
  | 101 => ⟨S_, .f32⟩
  | 102 => ⟨S100000x16, .f32⟩
  | 103 => ⟨S3200000x1, .i32⟩
  | 104 => ⟨S100000x16, .f32⟩
  | 105 => ⟨S100000, .f32⟩
  | 106 => ⟨S100000x1, .f32⟩
  | 107 => ⟨S100000x16, .f32⟩
  | 108 => ⟨S100000x16, .f32⟩
  | 109 => ⟨S100000x16, .f32⟩
  | 110 => ⟨S1x16, .f32⟩
  | 111 => ⟨S100000x16, .f32⟩
  | 112 => ⟨S100000x16, .f32⟩
  | 113 => ⟨S_, .f32⟩
  | 114 => ⟨S100000x16, .f32⟩
  | 115 => ⟨S100000x16, .f32⟩
  | 116 => ⟨S100000x11, .f32⟩
  | 117 => ⟨S_, .i32⟩
  | 118 => ⟨S3200000, .i32⟩
  | 119 => ⟨S3200000, .i1⟩
  | 120 => ⟨S_, .i32⟩
  | 121 => ⟨S3200000, .i32⟩
  | 122 => ⟨S3200000, .i32⟩
  | 123 => ⟨S3200000, .i32⟩
  | 124 => ⟨S3200000x1, .i32⟩
  | 125 => ⟨S3200000, .f32⟩
  | 126 => ⟨S_, .i32⟩
  | 127 => ⟨S3200000, .i32⟩
  | _ => ⟨S100000x512, .f32⟩

abbrev hbmTy0_1 (i : Nat) : BufTy := match i % 128 with
  | 0 => ⟨S3200000, .i1⟩
  | 1 => ⟨S_, .i32⟩
  | 2 => ⟨S3200000, .i32⟩
  | 3 => ⟨S3200000, .i32⟩
  | 4 => ⟨S3200000, .i32⟩
  | 5 => ⟨S3200000x1, .i32⟩
  | 6 => ⟨S3200000, .f32⟩
  | 7 => ⟨S3200000, .f32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000x11, .f32⟩
  | 17 => ⟨S3200000x1, .f32⟩
  | 18 => ⟨S3200000x11, .f32⟩
  | 19 => ⟨S3200000x11, .f32⟩
  | 20 => ⟨S_, .f32⟩
  | 21 => ⟨S100000x11, .f32⟩
  | 22 => ⟨S3200000x1, .i32⟩
  | 23 => ⟨S100000x11, .f32⟩
  | 24 => ⟨S100000, .f32⟩
  | 25 => ⟨S100000x1, .f32⟩
  | 26 => ⟨S100000x11, .f32⟩
  | 27 => ⟨S100000x11, .f32⟩
  | 28 => ⟨S100000x11, .f32⟩
  | 29 => ⟨S1x11, .f32⟩
  | 30 => ⟨S100000x11, .f32⟩
  | 31 => ⟨S100000x11, .f32⟩
  | 32 => ⟨S_, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x11, .f32⟩
  | 39 => ⟨S100000x11, .f32⟩
  | 40 => ⟨S100000x11, .f32⟩
  | 41 => ⟨S_, .f32⟩
  | 42 => ⟨S100000, .f32⟩
  | 43 => ⟨S100000x1, .f32⟩
  | 44 => ⟨S100000x1, .f32⟩
  | 45 => ⟨S100000x11, .f32⟩
  | 46 => ⟨S100000x11, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_c_15 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_17 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_19 : Ref sig .tc := ⟨.hbm, 136, rfl⟩
abbrev main_v103 : Ref sig .tc := ⟨.hbm, 137, rfl⟩
abbrev main_v104 : Ref sig .tc := ⟨.hbm, 138, rfl⟩
abbrev main_c_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_21 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_call2_cst : Ref sig .tc := ⟨.hbm, 160, rfl⟩
abbrev main_call2_v0 : Ref sig .tc := ⟨.hbm, 161, rfl⟩
abbrev main_call2_cst_0 : Ref sig .tc := ⟨.hbm, 162, rfl⟩
abbrev main_call2_v1 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_v5 : Ref sig .tc := ⟨.hbm, 167, rfl⟩
abbrev main_call2_v6 : Ref sig .tc := ⟨.hbm, 168, rfl⟩
abbrev main_call2_cst_1 : Ref sig .tc := ⟨.hbm, 169, rfl⟩
abbrev main_call2_v7 : Ref sig .tc := ⟨.hbm, 170, rfl⟩
abbrev main_call2_v8 : Ref sig .tc := ⟨.hbm, 171, rfl⟩
abbrev main_call2_v9 : Ref sig .tc := ⟨.hbm, 172, rfl⟩
abbrev main_call2_v10 : Ref sig .tc := ⟨.hbm, 173, rfl⟩
abbrev main_v124 : Ref sig .tc := ⟨.hbm, 174, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x11_0_1 : S3200000x1.BroadcastsInDim S3200000x11 (![0, 1] : Fin 2 → Fin S3200000x11.rank)
  bcast_S_S100000x11 : S_.BroadcastsInDim S100000x11 (![] : Fin 0 → Fin S100000x11.rank)
  bcast_S100000x1_S100000x11_0_1 : S100000x1.BroadcastsInDim S100000x11 (![0, 1] : Fin 2 → Fin S100000x11.rank)
  bcast_S11_S1x11_1 : S11.BroadcastsInDim S1x11 (![1] : Fin 1 → Fin S1x11.rank)
  bcast_S1x11_S100000x11_0_1 : S1x11.BroadcastsInDim S100000x11 (![0, 1] : Fin 2 → Fin S100000x11.rank)
  reducesTo_S100000x11_S100000_d1 : S100000x11.ReducesTo [1] S100000
  h_S_ : 0 < S_.numel
  scatter_S100000_S3200000x1_S3200000_n_0_0_1_wf : ScatterDims.WF S100000 S3200000x1 S3200000 [] [0] [0] 1
  dot_S100000x512_S512x32_S100000x32_1_0_0_1_n_n_wf : DotDims.WF S100000x512 S512x32 S100000x32 [1] [0] [0] [1] [] []
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x11_S100000x11_1_0_0_1_n_n_wf : DotDims.WF S100000x16 S16x11 S100000x11 [1] [0] [0] [1] [] []
  gather_S100000x11_S3200000x1_S3200000x11_1_0_n_n_0_1_111_wf : GatherDims.WF S100000x11 S3200000x1 S3200000x11 [1] [0] [] [0] [] 1 ![1, 11]
  scatter_S100000x11_S3200000x1_S3200000x11_1_0_0_1_wf : ScatterDims.WF S100000x11 S3200000x1 S3200000x11 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x11_S100000x11_1_0_0_1_n_n : DotDims S100000x16 S16x11 S100000x11 where
  lhsContracting := [1]
  rhsContracting := [0]
  lhsNonContracting := [0]
  rhsNonContracting := [1]
  lhsBatch := []
  rhsBatch := []
  wf := dot_S100000x16_S16x11_S100000x11_1_0_0_1_n_n_wf
def gather_S100000x11_S3200000x1_S3200000x11_1_0_n_n_0_1_111 : GatherDims S100000x11 S3200000x1 S3200000x11 where
  offsetDims := [1]
  collapsedSliceDims := [0]
  operandBatchingDims := []
  startIndicesBatchingDims := []
  startIndexMap := [0]
  indexVectorDim := 1
  sliceSizes := ![1, 11]
  wf := gather_S100000x11_S3200000x1_S3200000x11_1_0_n_n_0_1_111_wf
def scatter_S100000x11_S3200000x1_S3200000x11_1_0_0_1 : ScatterDims S100000x11 S3200000x1 S3200000x11 where
  updateWindowDims := [1]
  insertedWindowDims := [0]
  scatterDimsToOperandDims := [0]
  indexVectorDim := 1
  wf := scatter_S100000x11_S3200000x1_S3200000x11_1_0_0_1_wf

class Facts : Prop extends Facts₀ where

variable [Facts]
-- ==== Proof.RefCalls.lean ====
/-
  The rectifier both layers call on whole arrays, as a function of its input array: the maximum with a scalar zero
  laid over the array.  The second program's named value of each call is this function of the value going in.
-/
import proofs.«102378_j2207613190838_1_alg».proof.Proof.RefRead
import Idealize.ShloMosaic.PureOps.Ideal

set_option maxRecDepth 16384

noncomputable section

namespace Cert.ReferenceIdeal.Hand

open Cert.ReferenceIdeal Cert.ReferenceIdeal.Gen
open Idealize.ShloMosaic Idealize.ShloMosaic.TcCoe Idealize.SL.Sem
open Cert.ReferenceIdeal.ReadP

/-- The rectifier on a [100000, 32] array. -/
def relu32 (v : (⟨S100000x32, .f32⟩ : BufTy).Contents (Elt Ideal)) : (⟨S100000x32, .f32⟩ : BufTy).Contents (Elt Ideal) :=
  maximumf (F := Ideal) v (broadcastInDim S100000x32 ![] bcast_S_S100000x32 (constant (F := Ideal) S_ .f32 0x00000000#32))

/-- The rectifier on a [100000, 16] array. -/
def relu16 (v : (⟨S100000x16, .f32⟩ : BufTy).Contents (Elt Ideal)) : (⟨S100000x16, .f32⟩ : BufTy).Contents (Elt Ideal) :=
  maximumf (F := Ideal) v (broadcastInDim S100000x16 ![] bcast_S_S100000x16 (constant (F := Ideal) S_ .f32 0x00000000#32))

variable (x0 : (⟨S100000x512, .f32⟩ : BufTy).Contents (Elt Ideal))
variable (x1 : (⟨S2x3200000, .i32⟩ : BufTy).Contents (Elt Ideal))
variable (x2 : (⟨S512x32, .f32⟩ : BufTy).Contents (Elt Ideal))
variable (x3 : (⟨S32, .f32⟩ : BufTy).Contents (Elt Ideal))
variable (x4 : (⟨S32x16, .f32⟩ : BufTy).Contents (Elt Ideal))
variable (x5 : (⟨S16, .f32⟩ : BufTy).Contents (Elt Ideal))
variable (x6 : (⟨S16x11, .f32⟩ : BufTy).Contents (Elt Ideal))
variable (x7 : (⟨S11, .f32⟩ : BufTy).Contents (Elt Ideal))

/-- Layer 1's output is its pre-activation, rectified. -/
theorem val48_eq : val_main_v48 (F := Ideal) x0 x1 x2 x3 = relu32 (val_main_v47 (F := Ideal) x0 x1 x2 x3) := rfl

/-- Layer 2's output is its pre-activation, rectified. -/
theorem val86_eq : val_main_v86 (F := Ideal) x0 x1 x2 x3 x4 x5 = relu16 (val_main_v85 (F := Ideal) x0 x1 x2 x3 x4 x5) := rfl

end Cert.ReferenceIdeal.Hand

end
-- ==== Proof.RefStages.lean ====
/-
  The second program (whole-array operations only) read against its named intermediate values.

  Its 167 operations are cut into seven consecutive stretches: a prologue (edge sources and targets, and the
  reciprocal square root dis of in-degree + 1); for each of the three graph-convolution layers the stretch that
  projects, gathers along the sources, scales by dis[source] * dis[target], scatter-adds along the targets and adds the
  self-loop term and the bias; after each of the first two layers the three operations of the rectifier; and the
  row-wise log-softmax.  Each stretch is read from an arbitrary valuation of the buffers at its entry, given the few
  earlier values it uses; the rectifier is read as a function of the one array going in.  Chaining the first six gives
  layer 3's output as its named value of the launched arguments; the log-softmax stretch is not read: the result is
  that stretch's value over the buffers it is entered with.  Reading stretch by stretch keeps every term the size of
  one layer.
-/
import proofs.«102378_j2207613190838_1_alg».proof.Proof.RefRead
import proofs.«102378_j2207613190838_1_alg».proof.Proof.RefCalls
import Idealize.ShloMosaic.Lib.StableHlo.Run
import Idealize.ShloMosaic.PureOps.Ideal

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo
open Cert.ReferenceIdeal.ReadP

/-- Operations run one list after another are the concatenation run as one. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## The seven stretches -/

abbrev opsPro : List (HloOp τ sig (Elt Ideal)) := (ValueP.ops (F := Ideal)).take 14
abbrev opsL1 : List (HloOp τ sig (Elt Ideal)) := ((ValueP.ops (F := Ideal)).drop 14).take 44
abbrev opsR1 : List (HloOp τ sig (Elt Ideal)) := ((ValueP.ops (F := Ideal)).drop 58).take 3
abbrev opsL2 : List (HloOp τ sig (Elt Ideal)) := ((ValueP.ops (F := Ideal)).drop 61).take 44
abbrev opsR2 : List (HloOp τ sig (Elt Ideal)) := ((ValueP.ops (F := Ideal)).drop 105).take 3
abbrev opsL3 : List (HloOp τ sig (Elt Ideal)) := ((ValueP.ops (F := Ideal)).drop 108).take 44
abbrev opsLsm : List (HloOp τ sig (Elt Ideal)) := (ValueP.ops (F := Ideal)).drop 152

theorem ops_split : (ValueP.ops (F := Ideal)) = opsPro ++ (opsL1 ++ (opsR1 ++ (opsL2 ++ (opsR2 ++ (opsL3 ++ opsLsm))))) := by
  rfl

variable (W : Valuation τ sig (Elt Ideal))
variable (x0 : (⟨S100000x512, .f32⟩ : BufTy).Contents (Elt Ideal))
variable (x1 : (⟨S2x3200000, .i32⟩ : BufTy).Contents (Elt Ideal))
variable (x2 : (⟨S512x32, .f32⟩ : BufTy).Contents (Elt Ideal))
variable (x3 : (⟨S32, .f32⟩ : BufTy).Contents (Elt Ideal))
variable (x4 : (⟨S32x16, .f32⟩ : BufTy).Contents (Elt Ideal))
variable (x5 : (⟨S16, .f32⟩ : BufTy).Contents (Elt Ideal))
variable (x6 : (⟨S16x11, .f32⟩ : BufTy).Contents (Elt Ideal))
variable (x7 : (⟨S11, .f32⟩ : BufTy).Contents (Elt Ideal))

theorem fold_split : after (ValueP.ops (F := Ideal)) W
    = after opsLsm (after opsL3 (after opsR2 (after opsL2 (after opsR1 (after opsL1 (after opsPro W)))))) := by
  rw [ops_split, after_append, after_append, after_append, after_append, after_append, after_append]

/-! ## The prologue -/

theorem pro_src (h : W (Proc.devRef .tc main_arg1) = x1) : after opsPro W (Proc.devRef .tc main_v1) = val_main_v1 (F := Ideal) x1 := by
  simp only [opsPro, opsL1, opsR1, opsL2, opsR2, opsL3, opsLsm, ValueP.ops, List.take_succ_cons, List.take_zero, List.drop_succ_cons, List.drop_zero]
  after_results_simp
  rw [h]
  rfl

theorem pro_dst (h : W (Proc.devRef .tc main_arg1) = x1) : after opsPro W (Proc.devRef .tc main_v3) = val_main_v3 (F := Ideal) x1 := by
  simp only [opsPro, opsL1, opsR1, opsL2, opsR2, opsL3, opsLsm, ValueP.ops, List.take_succ_cons, List.take_zero, List.drop_succ_cons, List.drop_zero]
  after_results_simp
  rw [h]
  rfl

theorem pro_dis (h : W (Proc.devRef .tc main_arg1) = x1) : after opsPro W (Proc.devRef .tc main_v10) = val_main_v10 (F := Ideal) x1 := by
  simp only [opsPro, opsL1, opsR1, opsL2, opsR2, opsL3, opsLsm, ValueP.ops, List.take_succ_cons, List.take_zero, List.drop_succ_cons, List.drop_zero]
  after_results_simp
  rw [h]
  rfl

theorem pro_keep_a0 : after opsPro W (Proc.devRef .tc main_arg0) = W (Proc.devRef .tc main_arg0) := by
  simp only [opsPro, opsL1, opsR1, opsL2, opsR2, opsL3, opsLsm, ValueP.ops, List.take_succ_cons, List.take_zero, List.drop_succ_cons, List.drop_zero]
  after_results_simp
theorem pro_keep_a2 : after opsPro W (Proc.devRef .tc main_arg2) = W (Proc.devRef .tc main_arg2) := by
  simp only [opsPro, opsL1, opsR1, opsL2, opsR2, opsL3, opsLsm, ValueP.ops, List.take_succ_cons, List.take_zero, List.drop_succ_cons, List.drop_zero]
  after_results_simp
theorem pro_keep_a3 : after opsPro W (Proc.devRef .tc main_arg3) = W (Proc.devRef .tc main_arg3) := by
  simp only [opsPro, opsL1, opsR1, opsL2, opsR2, opsL3, opsLsm, ValueP.ops, List.take_succ_cons, List.take_zero, List.drop_succ_cons, List.drop_zero]
  after_results_simp
theorem pro_keep_a4 : after opsPro W (Proc.devRef .tc main_arg4) = W (Proc.devRef .tc main_arg4) := by
  simp only [opsPro, opsL1, opsR1, opsL2, opsR2, opsL3, opsLsm, ValueP.ops, List.take_succ_cons, List.take_zero, List.drop_succ_cons, List.drop_zero]
  after_results_simp
theorem pro_keep_a5 : after opsPro W (Proc.devRef .tc main_arg5) = W (Proc.devRef .tc main_arg5) := by
  simp only [opsPro, opsL1, opsR1, opsL2, opsR2, opsL3, opsLsm, ValueP.ops, List.take_succ_cons, List.take_zero, List.drop_succ_cons, List.drop_zero]
  after_results_simp
theorem pro_keep_a6 : after opsPro W (Proc.devRef .tc main_arg6) = W (Proc.devRef .tc main_arg6) := by
  simp only [opsPro, opsL1, opsR1, opsL2, opsR2, opsL3, opsLsm, ValueP.ops, List.take_succ_cons, List.take_zero, List.drop_succ_cons, List.drop_zero]
  after_results_simp
theorem pro_keep_a7 : after opsPro W (Proc.devRef .tc main_arg7) = W (Proc.devRef .tc main_arg7) := by
  simp only [opsPro, opsL1, opsR1, opsL2, opsR2, opsL3, opsLsm, ValueP.ops, List.take_succ_cons, List.take_zero, List.drop_succ_cons, List.drop_zero]
  after_results_simp

/-! ## Layer 1 -/

theorem layer1 (h1 : W (Proc.devRef .tc main_v1) = val_main_v1 (F := Ideal) x1) (h3 : W (Proc.devRef .tc main_v3) = val_main_v3 (F := Ideal) x1)
    (hd : W (Proc.devRef .tc main_v10) = val_main_v10 (F := Ideal) x1) (h0 : W (Proc.devRef .tc main_arg0) = x0) (h2 : W (Proc.devRef .tc main_arg2) = x2) (hb : W (Proc.devRef .tc main_arg3) = x3) :
    after opsL1 W (Proc.devRef .tc main_v47) = val_main_v47 (F := Ideal) x0 x1 x2 x3 := by
  simp only [opsPro, opsL1, opsR1, opsL2, opsR2, opsL3, opsLsm, ValueP.ops, List.take_succ_cons, List.take_zero, List.drop_succ_cons, List.drop_zero]
  after_results_simp
  rw [h1, h3, hd, h0, h2, hb]
  rfl

theorem l1_keep_v1 : after opsL1 W (Proc.devRef .tc main_v1) = W (Proc.devRef .tc main_v1) := by
  simp only [opsPro, opsL1, opsR1, opsL2, opsR2, opsL3, opsLsm, ValueP.ops, List.take_succ_cons, List.take_zero, List.drop_succ_cons, List.drop_zero]
  after_results_simp
theorem l1_keep_v3 : after opsL1 W (Proc.devRef .tc main_v3) = W (Proc.devRef .tc main_v3) := by
  simp only [opsPro, opsL1, opsR1, opsL2, opsR2, opsL3, opsLsm, ValueP.ops, List.take_succ_cons, List.take_zero, List.drop_succ_cons, List.drop_zero]
  after_results_simp
theorem l1_keep_v10 : after opsL1 W (Proc.devRef .tc main_v10) = W (Proc.devRef .tc main_v10) := by
  simp only [opsPro, opsL1, opsR1, opsL2, opsR2, opsL3, opsLsm, ValueP.ops, List.take_succ_cons, List.take_zero, List.drop_succ_cons, List.drop_zero]
  after_results_simp
theorem l1_keep_a4 : after opsL1 W (Proc.devRef .tc main_arg4) = W (Proc.devRef .tc main_arg4) := by
  simp only [opsPro, opsL1, opsR1, opsL2, opsR2, opsL3, opsLsm, ValueP.ops, List.take_succ_cons, List.take_zero, List.drop_succ_cons, List.drop_zero]
  after_results_simp
theorem l1_keep_a5 : after opsL1 W (Proc.devRef .tc main_arg5) = W (Proc.devRef .tc main_arg5) := by
  simp only [opsPro, opsL1, opsR1, opsL2, opsR2, opsL3, opsLsm, ValueP.ops, List.take_succ_cons, List.take_zero, List.drop_succ_cons, List.drop_zero]
  after_results_simp
theorem l1_keep_a6 : after opsL1 W (Proc.devRef .tc main_arg6) = W (Proc.devRef .tc main_arg6) := by
  simp only [opsPro, opsL1, opsR1, opsL2, opsR2, opsL3, opsLsm, ValueP.ops, List.take_succ_cons, List.take_zero, List.drop_succ_cons, List.drop_zero]
  after_results_simp
theorem l1_keep_a7 : after opsL1 W (Proc.devRef .tc main_arg7) = W (Proc.devRef .tc main_arg7) := by
  simp only [opsPro, opsL1, opsR1, opsL2, opsR2, opsL3, opsLsm, ValueP.ops, List.take_succ_cons, List.take_zero, List.drop_succ_cons, List.drop_zero]
  after_results_simp

/-- The rectifier after layer 1, as a function of the array going in. -/
theorem rect1 : after opsR1 W (Proc.devRef .tc main_v48) = relu32 (W (Proc.devRef .tc main_v47)) := by
  simp only [opsPro, opsL1, opsR1, opsL2, opsR2, opsL3, opsLsm, ValueP.ops, List.take_succ_cons, List.take_zero, List.drop_succ_cons, List.drop_zero]
  after_results_simp
  generalize W (Proc.devRef .tc main_v47) = v
  rfl

theorem r1_keep_v1 : after opsR1 W (Proc.devRef .tc main_v1) = W (Proc.devRef .tc main_v1) := by
  simp only [opsPro, opsL1, opsR1, opsL2, opsR2, opsL3, opsLsm, ValueP.ops, List.take_succ_cons, List.take_zero, List.drop_succ_cons, List.drop_zero]
  after_results_simp
theorem r1_keep_v3 : after opsR1 W (Proc.devRef .tc main_v3) = W (Proc.devRef .tc main_v3) := by
  simp only [opsPro, opsL1, opsR1, opsL2, opsR2, opsL3, opsLsm, ValueP.ops, List.take_succ_cons, List.take_zero, List.drop_succ_cons, List.drop_zero]
  after_results_simp
theorem r1_keep_v10 : after opsR1 W (Proc.devRef .tc main_v10) = W (Proc.devRef .tc main_v10) := by
  simp only [opsPro, opsL1, opsR1, opsL2, opsR2, opsL3, opsLsm, ValueP.ops, List.take_succ_cons, List.take_zero, List.drop_succ_cons, List.drop_zero]
  after_results_simp
theorem r1_keep_a4 : after opsR1 W (Proc.devRef .tc main_arg4) = W (Proc.devRef .tc main_arg4) := by
  simp only [opsPro, opsL1, opsR1, opsL2, opsR2, opsL3, opsLsm, ValueP.ops, List.take_succ_cons, List.take_zero, List.drop_succ_cons, List.drop_zero]
  after_results_simp
theorem r1_keep_a5 : after opsR1 W (Proc.devRef .tc main_arg5) = W (Proc.devRef .tc main_arg5) := by
  simp only [opsPro, opsL1, opsR1, opsL2, opsR2, opsL3, opsLsm, ValueP.ops, List.take_succ_cons, List.take_zero, List.drop_succ_cons, List.drop_zero]
  after_results_simp
theorem r1_keep_a6 : after opsR1 W (Proc.devRef .tc main_arg6) = W (Proc.devRef .tc main_arg6) := by
  simp only [opsPro, opsL1, opsR1, opsL2, opsR2, opsL3, opsLsm, ValueP.ops, List.take_succ_cons, List.take_zero, List.drop_succ_cons, List.drop_zero]
  after_results_simp
theorem r1_keep_a7 : after opsR1 W (Proc.devRef .tc main_arg7) = W (Proc.devRef .tc main_arg7) := by
  simp only [opsPro, opsL1, opsR1, opsL2, opsR2, opsL3, opsLsm, ValueP.ops, List.take_succ_cons, List.take_zero, List.drop_succ_cons, List.drop_zero]
  after_results_simp

/-! ## Layer 2 -/

theorem layer2 (h1 : W (Proc.devRef .tc main_v1) = val_main_v1 (F := Ideal) x1) (h3 : W (Proc.devRef .tc main_v3) = val_main_v3 (F := Ideal) x1)
    (hd : W (Proc.devRef .tc main_v10) = val_main_v10 (F := Ideal) x1) (hin : W (Proc.devRef .tc main_v48) = val_main_v48 (F := Ideal) x0 x1 x2 x3)
    (hw : W (Proc.devRef .tc main_arg4) = x4) (hb : W (Proc.devRef .tc main_arg5) = x5) :
    after opsL2 W (Proc.devRef .tc main_v85) = val_main_v85 (F := Ideal) x0 x1 x2 x3 x4 x5 := by
  simp only [opsPro, opsL1, opsR1, opsL2, opsR2, opsL3, opsLsm, ValueP.ops, List.take_succ_cons, List.take_zero, List.drop_succ_cons, List.drop_zero]
  after_results_simp
  rw [h1, h3, hd, hin, hw, hb]
  rfl

theorem l2_keep_v1 : after opsL2 W (Proc.devRef .tc main_v1) = W (Proc.devRef .tc main_v1) := by
  simp only [opsPro, opsL1, opsR1, opsL2, opsR2, opsL3, opsLsm, ValueP.ops, List.take_succ_cons, List.take_zero, List.drop_succ_cons, List.drop_zero]
  after_results_simp
theorem l2_keep_v3 : after opsL2 W (Proc.devRef .tc main_v3) = W (Proc.devRef .tc main_v3) := by
  simp only [opsPro, opsL1, opsR1, opsL2, opsR2, opsL3, opsLsm, ValueP.ops, List.take_succ_cons, List.take_zero, List.drop_succ_cons, List.drop_zero]
  after_results_simp
theorem l2_keep_v10 : after opsL2 W (Proc.devRef .tc main_v10) = W (Proc.devRef .tc main_v10) := by
  simp only [opsPro, opsL1, opsR1, opsL2, opsR2, opsL3, opsLsm, ValueP.ops, List.take_succ_cons, List.take_zero, List.drop_succ_cons, List.drop_zero]
  after_results_simp
theorem l2_keep_a6 : after opsL2 W (Proc.devRef .tc main_arg6) = W (Proc.devRef .tc main_arg6) := by
  simp only [opsPro, opsL1, opsR1, opsL2, opsR2, opsL3, opsLsm, ValueP.ops, List.take_succ_cons, List.take_zero, List.drop_succ_cons, List.drop_zero]
  after_results_simp
theorem l2_keep_a7 : after opsL2 W (Proc.devRef .tc main_arg7) = W (Proc.devRef .tc main_arg7) := by
  simp only [opsPro, opsL1, opsR1, opsL2, opsR2, opsL3, opsLsm, ValueP.ops, List.take_succ_cons, List.take_zero, List.drop_succ_cons, List.drop_zero]
  after_results_simp

/-- The rectifier after layer 2. -/
theorem rect2 : after opsR2 W (Proc.devRef .tc main_v86) = relu16 (W (Proc.devRef .tc main_v85)) := by
  simp only [opsPro, opsL1, opsR1, opsL2, opsR2, opsL3, opsLsm, ValueP.ops, List.take_succ_cons, List.take_zero, List.drop_succ_cons, List.drop_zero]
  after_results_simp
  generalize W (Proc.devRef .tc main_v85) = v
  rfl

theorem r2_keep_v1 : after opsR2 W (Proc.devRef .tc main_v1) = W (Proc.devRef .tc main_v1) := by
  simp only [opsPro, opsL1, opsR1, opsL2, opsR2, opsL3, opsLsm, ValueP.ops, List.take_succ_cons, List.take_zero, List.drop_succ_cons, List.drop_zero]
  after_results_simp
theorem r2_keep_v3 : after opsR2 W (Proc.devRef .tc main_v3) = W (Proc.devRef .tc main_v3) := by
  simp only [opsPro, opsL1, opsR1, opsL2, opsR2, opsL3, opsLsm, ValueP.ops, List.take_succ_cons, List.take_zero, List.drop_succ_cons, List.drop_zero]
  after_results_simp
theorem r2_keep_v10 : after opsR2 W (Proc.devRef .tc main_v10) = W (Proc.devRef .tc main_v10) := by
  simp only [opsPro, opsL1, opsR1, opsL2, opsR2, opsL3, opsLsm, ValueP.ops, List.take_succ_cons, List.take_zero, List.drop_succ_cons, List.drop_zero]
  after_results_simp
theorem r2_keep_a6 : after opsR2 W (Proc.devRef .tc main_arg6) = W (Proc.devRef .tc main_arg6) := by
  simp only [opsPro, opsL1, opsR1, opsL2, opsR2, opsL3, opsLsm, ValueP.ops, List.take_succ_cons, List.take_zero, List.drop_succ_cons, List.drop_zero]
  after_results_simp
theorem r2_keep_a7 : after opsR2 W (Proc.devRef .tc main_arg7) = W (Proc.devRef .tc main_arg7) := by
  simp only [opsPro, opsL1, opsR1, opsL2, opsR2, opsL3, opsLsm, ValueP.ops, List.take_succ_cons, List.take_zero, List.drop_succ_cons, List.drop_zero]
  after_results_simp

/-! ## Layer 3 -/

theorem layer3 (h1 : W (Proc.devRef .tc main_v1) = val_main_v1 (F := Ideal) x1) (h3 : W (Proc.devRef .tc main_v3) = val_main_v3 (F := Ideal) x1)
    (hd : W (Proc.devRef .tc main_v10) = val_main_v10 (F := Ideal) x1) (hin : W (Proc.devRef .tc main_v86) = val_main_v86 (F := Ideal) x0 x1 x2 x3 x4 x5)
    (hw : W (Proc.devRef .tc main_arg6) = x6) (hb : W (Proc.devRef .tc main_arg7) = x7) :
    after opsL3 W (Proc.devRef .tc main_v123) = val_main_v123 (F := Ideal) x0 x1 x2 x3 x4 x5 x6 x7 := by
  simp only [opsPro, opsL1, opsR1, opsL2, opsR2, opsL3, opsLsm, ValueP.ops, List.take_succ_cons, List.take_zero, List.drop_succ_cons, List.drop_zero]
  after_results_simp
  rw [h1, h3, hd, hin, hw, hb]
  rfl

/-! ## The whole program up to the log-softmax -/

/-- The buffers when the log-softmax stretch is entered. -/
abbrev preLsm : Valuation τ sig (Elt Ideal) :=
  after opsL3 (after opsR2 (after opsL2 (after opsR1 (after opsL1 (after opsPro W)))))

theorem fold_pre : after (ValueP.ops (F := Ideal)) W = after opsLsm (preLsm W) := fold_split W

/-- Layer 3's output, the log-softmax's input, is its named value of the entry contents of the arguments. -/
theorem pre_v123 : preLsm W (Proc.devRef .tc main_v123)
    = val_main_v123 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  have p1 := pro_src W _ (rfl : W (Proc.devRef .tc main_arg1) = _)
  have p3 := pro_dst W _ (rfl : W (Proc.devRef .tc main_arg1) = _)
  have pd := pro_dis W _ (rfl : W (Proc.devRef .tc main_arg1) = _)
  have o1 := layer1 (after opsPro W) _ _ _ _ p1 p3 pd (pro_keep_a0 W) (pro_keep_a2 W) (pro_keep_a3 W)
  have a1 := (rect1 (after opsL1 (after opsPro W))).trans ((congrArg relu32 o1).trans (val48_eq _ _ _ _).symm)
  have o2 := layer2 (after opsR1 (after opsL1 (after opsPro W))) _ _ _ _ _ _
    ((r1_keep_v1 _).trans ((l1_keep_v1 _).trans p1)) ((r1_keep_v3 _).trans ((l1_keep_v3 _).trans p3))
    ((r1_keep_v10 _).trans ((l1_keep_v10 _).trans pd)) a1
    ((r1_keep_a4 _).trans ((l1_keep_a4 _).trans (pro_keep_a4 W))) ((r1_keep_a5 _).trans ((l1_keep_a5 _).trans (pro_keep_a5 W)))
  have a2 := (rect2 (after opsL2 (after opsR1 (after opsL1 (after opsPro W))))).trans
    ((congrArg relu16 o2).trans (val86_eq _ _ _ _ _ _).symm)
  exact layer3 (after opsR2 (after opsL2 (after opsR1 (after opsL1 (after opsPro W))))) _ _ _ _ _ _ _ _
    ((r2_keep_v1 _).trans ((l2_keep_v1 _).trans ((r1_keep_v1 _).trans ((l1_keep_v1 _).trans p1))))
    ((r2_keep_v3 _).trans ((l2_keep_v3 _).trans ((r1_keep_v3 _).trans ((l1_keep_v3 _).trans p3))))
    ((r2_keep_v10 _).trans ((l2_keep_v10 _).trans ((r1_keep_v10 _).trans ((l1_keep_v10 _).trans pd)))) a2
    ((r2_keep_a6 _).trans ((l2_keep_a6 _).trans ((r1_keep_a6 _).trans ((l1_keep_a6 _).trans (pro_keep_a6 W)))))
    ((r2_keep_a7 _).trans ((l2_keep_a7 _).trans ((r1_keep_a7 _).trans ((l1_keep_a7 _).trans (pro_keep_a7 W)))))

variable (m : (ℓ : Loc nD τ sig) → Buf (Elt Ideal) ℓ) (ρ : Dev nD → PrngReg)

/-- Every weakly fair execution of the second program terminates with the result at the log-softmax stretch's value
    over the buffers it is entered with, and the arguments unchanged. -/
theorem run : θ_run defs (onTc (τ := τ) (main (F := Ideal))) ⟨m, fun _ => 0, ρ⟩ fun r => ∀ c : Dev nD,
      r.2.mem ((c.tc : Thread nD τ).loc main_v124) = after opsLsm (preLsm (launchContents m c)) (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (congrFun (fold_pre (launchContents m c)) _), (h c).2⟩)
    (Cert.ReferenceIdeal.ValueP.run (F := Ideal) m ρ)

end Cert.ReferenceIdeal.Hand

end
-- ==== Proof.KRun.lean ====
/-
  The whole program's run with its result named.  The program is eleven segments: five stretches of whole-array
  operations and six row-tiled launches (three matrix products, three node updates).  Every weakly fair execution
  ends with each buffer at the contents the last boundary of that chain of segments gives it; in particular the
  result buffer ends at the last boundary's contents, and the eight argument arrays end as launched.
-/
import proofs.«102378_j2207613190838_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer holds what the last segment boundary
    gives it, and the arguments are unchanged. -/
theorem run_value : θ_run defs (onTc (τ := τ) (main (F := F))) ⟨m, fun _ => 0, ρ⟩ (fun r => ∀ c : Dev nD,
      r.2.mem ((c.tc : Thread nD τ).loc main_v71) = W11 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v71 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Hand

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«102378_j2207613190838_1_alg».proof.Proof.LibMatmulPlain
import proofs.«102378_j2207613190838_1_alg».proof.Proof.LibDotsNT
import proofs.«102378_j2207613190838_1_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.HostStages.lean ====
/-
  The first four stretches of whole-array operations between the launches, each read from an arbitrary valuation W of the
  buffers at the stretch's entry, against the second program's named intermediate values.

  Stretch 0 slices the edge list into sources and targets, counts in-degrees with a scatter-add, takes the reciprocal
  square root dis of (degree + 1), and lays dis * dis out as a column and the edge weight dis[source] * dis[target] as
  a column.  The column is a reshape here and a broadcast_in_dim there: one array.
  Stretches 1, 3, 5 gather the projected features along the sources, scale by the edge weight and scatter-add along
  the targets.  (The last stretch, the row-wise log-softmax, is compared with the second program's as a whole, in
  Proof/TailBridge.lean.)  None of the gathers or scatters is opened: the two programs apply the same operation to
  equal operands.
-/
import proofs.«102378_j2207613190838_1_alg».proof.Proof.Gen.KernelIdeal.Launch
import proofs.«102378_j2207613190838_1_alg».proof.Proof.RefRead
import proofs.«102378_j2207613190838_1_alg».proof.Proof.LibDenseLayer
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.ReadP

variable (W : Valuation τ sig (Elt Ideal))
variable (x0 : (⟨Cert.ReferenceIdeal.S100000x512, .f32⟩ : BufTy).Contents (Elt Ideal))
variable (x1 : (⟨Cert.ReferenceIdeal.S2x3200000, .i32⟩ : BufTy).Contents (Elt Ideal))
variable (x2 : (⟨Cert.ReferenceIdeal.S512x32, .f32⟩ : BufTy).Contents (Elt Ideal))
variable (x3 : (⟨Cert.ReferenceIdeal.S32, .f32⟩ : BufTy).Contents (Elt Ideal))
variable (x4 : (⟨Cert.ReferenceIdeal.S32x16, .f32⟩ : BufTy).Contents (Elt Ideal))
variable (x5 : (⟨Cert.ReferenceIdeal.S16, .f32⟩ : BufTy).Contents (Elt Ideal))
variable (x6 : (⟨Cert.ReferenceIdeal.S16x11, .f32⟩ : BufTy).Contents (Elt Ideal))
variable (x7 : (⟨Cert.ReferenceIdeal.S11, .f32⟩ : BufTy).Contents (Elt Ideal))

/-! ## The edge weight and the self-loop weight are the same columns in every layer -/

theorem normcol2 : val_main_v72 (F := Ideal) x1 = val_main_v34 (F := Ideal) x1 := rfl
theorem normcol3 : val_main_v110 (F := Ideal) x1 = val_main_v34 (F := Ideal) x1 := rfl
theorem degcol2 : val_main_v79 (F := Ideal) x1 = val_main_v41 (F := Ideal) x1 := rfl
theorem degcol3 : val_main_v117 (F := Ideal) x1 = val_main_v41 (F := Ideal) x1 := rfl

/-! ## Stretch 0 -/

/-- The edge sources. -/
theorem st0_src (h : W (Proc.devRef .tc main_arg1) = x1) : after hostOps0 W (Proc.devRef .tc main_v1) = val_main_v1 (F := Ideal) x1 := by
  after_results_simp
  rw [h]
  rfl

/-- The edge targets. -/
theorem st0_dst (h : W (Proc.devRef .tc main_arg1) = x1) : after hostOps0 W (Proc.devRef .tc main_v3) = val_main_v3 (F := Ideal) x1 := by
  after_results_simp
  rw [h]
  rfl

/-- The self-loop weight dis * dis as a column. -/
theorem st0_degcol (h : W (Proc.devRef .tc main_arg1) = x1) : after hostOps0 W (Proc.devRef .tc main_v12) = val_main_v41 (F := Ideal) x1 := by
  after_results_simp
  rw [h]
  refine (Cert.Dense.column_cast_eq_bcast (a := 100000) _ _ Cert.ReferenceIdeal.Facts₀.bcast_S100000_S100000x1_0).trans ?_
  rfl

/-- The edge weight dis[source] * dis[target] as a column. -/
theorem st0_normcol (h : W (Proc.devRef .tc main_arg1) = x1) : after hostOps0 W (Proc.devRef .tc main_v28) = val_main_v34 (F := Ideal) x1 := by
  after_results_simp
  rw [h]
  refine (Cert.Dense.column_cast_eq_bcast (a := 3200000) _ _ Cert.ReferenceIdeal.Facts₀.bcast_S3200000_S3200000x1_0).trans ?_
  rfl

theorem keep0_a0 : after hostOps0 W (Proc.devRef .tc main_arg0) = W (Proc.devRef .tc main_arg0) := by after_results_simp
theorem keep0_a2 : after hostOps0 W (Proc.devRef .tc main_arg2) = W (Proc.devRef .tc main_arg2) := by after_results_simp
theorem keep0_a3 : after hostOps0 W (Proc.devRef .tc main_arg3) = W (Proc.devRef .tc main_arg3) := by after_results_simp
theorem keep0_a4 : after hostOps0 W (Proc.devRef .tc main_arg4) = W (Proc.devRef .tc main_arg4) := by after_results_simp
theorem keep0_a5 : after hostOps0 W (Proc.devRef .tc main_arg5) = W (Proc.devRef .tc main_arg5) := by after_results_simp
theorem keep0_a6 : after hostOps0 W (Proc.devRef .tc main_arg6) = W (Proc.devRef .tc main_arg6) := by after_results_simp
theorem keep0_a7 : after hostOps0 W (Proc.devRef .tc main_arg7) = W (Proc.devRef .tc main_arg7) := by after_results_simp

/-! ## Stretches 1, 3, 5: the neighbour aggregation of each layer -/

/-- Layer 1's summed messages. -/
theorem st1_agg (h1 : W (Proc.devRef .tc main_v1) = val_main_v1 (F := Ideal) x1) (h3 : W (Proc.devRef .tc main_v3) = val_main_v3 (F := Ideal) x1)
    (hn : W (Proc.devRef .tc main_v28) = val_main_v34 (F := Ideal) x1) (hh : W (Proc.devRef .tc main_v29) = val_main_v11 (F := Ideal) x0 x2) :
    after hostOps1 W (Proc.devRef .tc main_v41) = val_main_v39 (F := Ideal) x0 x1 x2 := by
  after_results_simp
  rw [h1, h3, hn, hh]
  rfl

/-- Layer 2's summed messages. -/
theorem st3_agg (h1 : W (Proc.devRef .tc main_v1) = val_main_v1 (F := Ideal) x1) (h3 : W (Proc.devRef .tc main_v3) = val_main_v3 (F := Ideal) x1)
    (hn : W (Proc.devRef .tc main_v28) = val_main_v72 (F := Ideal) x1) (hh : W (Proc.devRef .tc main_v43) = val_main_v49 (F := Ideal) x0 x1 x2 x3 x4) :
    after hostOps3 W (Proc.devRef .tc main_v55) = val_main_v77 (F := Ideal) x0 x1 x2 x3 x4 := by
  after_results_simp
  rw [h1, h3, hn, hh]
  rfl

/-- Layer 3's summed messages. -/
theorem st5_agg (h1 : W (Proc.devRef .tc main_v1) = val_main_v1 (F := Ideal) x1) (h3 : W (Proc.devRef .tc main_v3) = val_main_v3 (F := Ideal) x1)
    (hn : W (Proc.devRef .tc main_v28) = val_main_v110 (F := Ideal) x1) (hh : W (Proc.devRef .tc main_v57) = val_main_v87 (F := Ideal) x0 x1 x2 x3 x4 x5 x6) :
    after hostOps5 W (Proc.devRef .tc main_v69) = val_main_v115 (F := Ideal) x0 x1 x2 x3 x4 x5 x6 := by
  after_results_simp
  rw [h1, h3, hn, hh]
  rfl

theorem keep1_v1 : after hostOps1 W (Proc.devRef .tc main_v1) = W (Proc.devRef .tc main_v1) := by after_results_simp
theorem keep1_v3 : after hostOps1 W (Proc.devRef .tc main_v3) = W (Proc.devRef .tc main_v3) := by after_results_simp
theorem keep1_v12 : after hostOps1 W (Proc.devRef .tc main_v12) = W (Proc.devRef .tc main_v12) := by after_results_simp
theorem keep1_v28 : after hostOps1 W (Proc.devRef .tc main_v28) = W (Proc.devRef .tc main_v28) := by after_results_simp
theorem keep1_v29 : after hostOps1 W (Proc.devRef .tc main_v29) = W (Proc.devRef .tc main_v29) := by after_results_simp
theorem keep1_a3 : after hostOps1 W (Proc.devRef .tc main_arg3) = W (Proc.devRef .tc main_arg3) := by after_results_simp
theorem keep1_a4 : after hostOps1 W (Proc.devRef .tc main_arg4) = W (Proc.devRef .tc main_arg4) := by after_results_simp
theorem keep1_a5 : after hostOps1 W (Proc.devRef .tc main_arg5) = W (Proc.devRef .tc main_arg5) := by after_results_simp
theorem keep1_a6 : after hostOps1 W (Proc.devRef .tc main_arg6) = W (Proc.devRef .tc main_arg6) := by after_results_simp
theorem keep1_a7 : after hostOps1 W (Proc.devRef .tc main_arg7) = W (Proc.devRef .tc main_arg7) := by after_results_simp
theorem keep3_v1 : after hostOps3 W (Proc.devRef .tc main_v1) = W (Proc.devRef .tc main_v1) := by after_results_simp
theorem keep3_v3 : after hostOps3 W (Proc.devRef .tc main_v3) = W (Proc.devRef .tc main_v3) := by after_results_simp
theorem keep3_v12 : after hostOps3 W (Proc.devRef .tc main_v12) = W (Proc.devRef .tc main_v12) := by after_results_simp
theorem keep3_v28 : after hostOps3 W (Proc.devRef .tc main_v28) = W (Proc.devRef .tc main_v28) := by after_results_simp
theorem keep3_v43 : after hostOps3 W (Proc.devRef .tc main_v43) = W (Proc.devRef .tc main_v43) := by after_results_simp
theorem keep3_a5 : after hostOps3 W (Proc.devRef .tc main_arg5) = W (Proc.devRef .tc main_arg5) := by after_results_simp
theorem keep3_a6 : after hostOps3 W (Proc.devRef .tc main_arg6) = W (Proc.devRef .tc main_arg6) := by after_results_simp
theorem keep3_a7 : after hostOps3 W (Proc.devRef .tc main_arg7) = W (Proc.devRef .tc main_arg7) := by after_results_simp
theorem keep5_v12 : after hostOps5 W (Proc.devRef .tc main_v12) = W (Proc.devRef .tc main_v12) := by after_results_simp
theorem keep5_v57 : after hostOps5 W (Proc.devRef .tc main_v57) = W (Proc.devRef .tc main_v57) := by after_results_simp
theorem keep5_a7 : after hostOps5 W (Proc.devRef .tc main_arg7) = W (Proc.devRef .tc main_arg7) := by after_results_simp

end Cert.KernelIdeal.Hand

end
-- ==== Proof.LibDenseBranch.lean ====
/-
  One dense branch of the network, read at an entry, over literal-free extents.

  For an [a, k] array h, a [k, n] weight W and a [1, n] bias row B:
    act h W B (r, q)              = max (sum over c of h(r, c) * W(c, q) + B(0, q)) 0      (the rectified layer)
    gate h W1 B1 W2 B2 (r, q)     = act h W1 B1 (r, q) * act h W2 B2 (r, q)               (the product branch)
  and the raw product h W (Cert.Dense.prod) feeds the edge aggregation.

  Each is spelt twice in the programs: on a tile of rows by the matrix unit (operands rounded to bfloat16, which
  on the extended reals changes nothing; the bias row and the zero spread over the tile), and on the whole array
  by the host's dot_general with the bias laid over the rows and a scalar zero laid over everything.  Both
  spellings are the functions above; and an entry of the whole array's function is the same function of the
  block of rows that holds it, since an entry of a product only reads its own row of h.
-/
import Idealize.ShloMosaic.Lib.Pipeline.Value
import Idealize.ShloMosaic.Lib.ValueIdx
import Idealize.ShloMosaic.Lib.ValueLayout
import Idealize.ShloMosaic.PureOps.Ideal.Laws
import proofs.«102378_j2207613190838_1_alg».proof.Proof.LibDenseLayer

noncomputable section

open scoped BigOperators

namespace Cert.Branch

open Idealize.ShloMosaic Idealize.ShloMosaic.ValueIdx

variable {a k n N : ℕ}

/-- The rectified dense layer at an entry: the larger of (h W + B)(r, q) and zero. -/
def act (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => max (Cert.Dense.biased h W B i) (Ideal.ofBits .f32 0x00000000#32)

/-- The product branch at an entry: two rectified layers of the same h, multiplied. -/
def gate (h : (⟨2, ![a, k]⟩ : Shape).Idx → EReal) (W1 : (⟨2, ![k, n]⟩ : Shape).Idx → EReal)
    (B1 : (⟨2, ![1, n]⟩ : Shape).Idx → EReal) (W2 : (⟨2, ![k, n]⟩ : Shape).Idx → EReal)
    (B2 : (⟨2, ![1, n]⟩ : Shape).Idx → EReal) : (⟨2, ![a, n]⟩ : Shape).Idx → EReal :=
  fun i => act h W1 B1 i * act h W2 B2 i

/-! ## An entry only reads its own row -/

/-- If row (j 0) of the block xb is row (i 0) of the array X, the weights agree and the columns agree, the
    product's entry j over the block is the product's entry i over the array. -/
theorem prod_at (X : (⟨2, ![N, k]⟩ : Shape).Idx → EReal) (W : (⟨2, ![k, n]⟩ : Shape).Idx → EReal)
    (xb : (⟨2, ![a, k]⟩ : Shape).Idx → EReal) (wb : (⟨2, ![k, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw : ∀ y, wb y = W y) (hq : j 1 = i 1) :
    Cert.Dense.prod xb wb j = Cert.Dense.prod X W i := by
  show ∑ c : Fin k, xb (ix2 (j 0) c) * wb (ix2 c (j 1)) = ∑ c : Fin k, X (ix2 (i 0) c) * W (ix2 c (i 1))
  refine Finset.sum_congr rfl fun c _ => ?_
  rw [hx c, hw, hq]

/-- The same for the rectified layer. -/
theorem act_at (X : (⟨2, ![N, k]⟩ : Shape).Idx → EReal) (W : (⟨2, ![k, n]⟩ : Shape).Idx → EReal)
    (B : (⟨2, ![1, n]⟩ : Shape).Idx → EReal)
    (xb : (⟨2, ![a, k]⟩ : Shape).Idx → EReal) (wb : (⟨2, ![k, n]⟩ : Shape).Idx → EReal)
    (bb : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw : ∀ y, wb y = W y) (hb : ∀ y, bb y = B y)
    (hq : j 1 = i 1) :
    act xb wb bb j = act X W B i := by
  show max (Cert.Dense.prod xb wb j + bb (ix2 (0 : Fin 1) (j 1))) _
      = max (Cert.Dense.prod X W i + B (ix2 (0 : Fin 1) (i 1))) _
  rw [prod_at X W xb wb j i hx hw hq, hb, hq]

/-- The same for the product branch. -/
theorem gate_at (X : (⟨2, ![N, k]⟩ : Shape).Idx → EReal) (W1 : (⟨2, ![k, n]⟩ : Shape).Idx → EReal)
    (B1 : (⟨2, ![1, n]⟩ : Shape).Idx → EReal) (W2 : (⟨2, ![k, n]⟩ : Shape).Idx → EReal)
    (B2 : (⟨2, ![1, n]⟩ : Shape).Idx → EReal)
    (xb : (⟨2, ![a, k]⟩ : Shape).Idx → EReal) (w1 : (⟨2, ![k, n]⟩ : Shape).Idx → EReal)
    (b1 : (⟨2, ![1, n]⟩ : Shape).Idx → EReal) (w2 : (⟨2, ![k, n]⟩ : Shape).Idx → EReal)
    (b2 : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw1 : ∀ y, w1 y = W1 y) (hb1 : ∀ y, b1 y = B1 y)
    (hw2 : ∀ y, w2 y = W2 y) (hb2 : ∀ y, b2 y = B2 y) (hq : j 1 = i 1) :
    gate xb w1 b1 w2 b2 j = gate X W1 B1 W2 B2 i := by
  show act xb w1 b1 j * act xb w2 b2 j = act X W1 B1 i * act X W2 B2 i
  rw [act_at X W1 B1 xb w1 b1 j i hx hw1 hb1 hq, act_at X W2 B2 xb w2 b2 j i hx hw2 hb2 hq]

/-! ## The tile's spelling and the host's spelling -/

section Spellings

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- On a tile: the matrix unit's product into zero, plus the bias row spread over the rows, against a zero
    spread over the tile, is the rectified layer. -/
theorem tile_act (x : FVec Ideal ⟨2, ![a, k]⟩ .f32) (W : FVec Ideal ⟨2, ![k, n]⟩ .f32)
    (b : FVec Ideal ⟨2, ![1, n]⟩ .f32) (hb : FTy.bf16.bits < FTy.f32.bits)
    (hc3 : (⟨2, ![1, n]⟩ : Shape).ShapeCasts ⟨2, ![1, n]⟩) (hb3 : (⟨2, ![1, n]⟩ : Shape).Broadcasts ⟨2, ![a, n]⟩) :
    maximumf (addf (matmul d none (truncf .bf16 x hb) (truncf .bf16 W hb)
          (constant (F := Ideal) ⟨2, ![a, n]⟩ .f32 0x00000000#32))
        (broadcastTo ⟨2, ![a, n]⟩ (shapeCast ⟨2, ![1, n]⟩ b hc3) hb3))
      (broadcast ⟨2, ![a, n]⟩ (Scalar.ofBits (F := Ideal) .f32 0x00000000#32))
      = act x W b := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [Cert.Dense.matmul_eq_prod d hlc hrc hln hrn hlb hrb x W hb]
  exact Cert.Dense.tile_biased _ b hc3 hb3 r q

include hlc hrc hln hrn hlb hrb in
/-- On the whole array: the host's dot_general plus the bias row laid over the rows, against a scalar zero laid
    over everything, is the rectified layer. -/
theorem host_act (X : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1])
    (h0 : (⟨0, ![]⟩ : Shape).BroadcastsInDim ⟨2, ![a, n]⟩ ![]) :
    maximumf (addf (Host.dotGeneral (F := Ideal) d none X W) (broadcastInDim ⟨2, ![a, n]⟩ ![0, 1] hB B))
      (broadcastInDim ⟨2, ![a, n]⟩ ![] h0 (constant (F := Ideal) ⟨0, ![]⟩ .f32 0x00000000#32))
      = act X W B := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [Cert.Dense.dotGeneral_eq_prod d hlc hrc hln hrn hlb hrb X W]
  exact Cert.Dense.host_biased _ B hB r q

end Spellings

end Cert.Branch

end
-- ==== Proof.Region0.lean ====
/-
  Launch 0: a matrix product tiled by rows.  The grid has 20 points; point t reads rows 5000 t … 5000 t + 4999 of the
  [100000, 512] left operand and the whole [512, 32] right operand, and writes rows 5000 t … 5000 t + 4999 of the
  [100000, 32] result.  An entry of a product reads only its own row of the left operand, so each written block is
  the block of the product of the whole arrays; the 20 blocks tile the result, which therefore ends as that product.
-/
import proofs.«102378_j2207613190838_1_alg».proof.Proof.Gen.KernelIdeal.Frame
import proofs.«102378_j2207613190838_1_alg».proof.Proof.LibDenseBranch
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz_0 : (![0, 0] : Fin 2 → Nat) = fun _ => 0 := funext fun a => by fin_cases a <;> rfl

/-- The body's arithmetic on a tile is the product of the tile's two blocks. -/
theorem pay0_eq (x0 : Vec Ideal S5000x512 .f32) (x1 : Vec Ideal S512x32 .f32) :
    k0_pay1 x0 x1 = Cert.Dense.prod (a := 5000) (k := 512) (n := 32) x0 x1 :=
  Cert.Dense.matmul_eq_prod dot_S5000x512_S512x32_S5000x32_1_0_0_1_n_n rfl rfl rfl rfl rfl rfl x0 x1 bitsLt_bf16_f32

/-- Where each window's block sits at point t: the left operand and the result move down 5000 rows per point, the
    right operand stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000 t … of the array. -/
theorem lhs0_apply (c : Dev nD) (t : Fin cfg0.N) (y : S5000x512.Idx) (i : S100000x512.Idx)
    (h0 : (i 0).val = 5000 * t.val + (y 0).val) (h1 : (i 1).val = (y 1).val) :
    (iblk0 V c 0 t : Vec Ideal S5000x512 .f32) y = (V c main_arg0 : S100000x512.Idx → EReal) i := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 512 + 1 * (y 1).val = (i 1).val; rw [e1, h1]; omega

/-- The right operand's block at every point is the whole array. -/
theorem rhs0_apply (c : Dev nD) (t : Fin cfg0.N) (y : S512x32.Idx) :
    (iblk0 V c 1 t : Vec Ideal S512x32 .f32) y = (V c main_arg2 : S512x32.Idx → EReal) y := by
  obtain ⟨-, -, e2, e3, -⟩ := idx0 t
  unfold iblk0
  rw [View.read_apply]
  show V c main_arg2 _ = V c main_arg2 _
  congr 1
  funext a
  apply Fin.ext
  match a with
  | ⟨0, _⟩ => show win0_1.index t 0 * 512 + 1 * (y 0).val = (y 0).val; rw [e2]; omega
  | ⟨1, _⟩ => show win0_1.index t 1 * 32 + 1 * (y 1).val = (y 1).val; rw [e3]; omega

/-- What point t writes back is block t of the product of the whole arrays. -/
theorem flushed0 (c : Dev nD) (t : Fin cfg0.N) :
    (dat0 V c).flushed 2 t = ((cfg0.win 2).blk t).view.read (Elt Ideal)
      (Cert.Dense.prod (a := 100000) (k := 512) (n := 32) (V c main_arg0) (V c main_arg2)) := by
  show (cfg0.win 2).cut (grid0.coords t) ((dat0 V c).after 2 t) = _
  rw [after0_2]
  unfold out0_2
  rw [View.canon_unit_zero hz_0]
  simp only [View.ld_unit_zero (S := S5000x512) hz_0, View.ld_unit_zero (S := S512x32) hz_0]
  obtain ⟨-, -, -, -, e4, e5⟩ := idx0 t
  funext j
  show k0_pay1 (iblk0 V c 0 t) (iblk0 V c 1 t) j
    = Cert.Dense.prod (a := 100000) (k := 512) (n := 32) (V c main_arg0) (V c main_arg2) (((cfg0.win 2).blk t).view.emb j)
  refine (congrFun (pay0_eq (iblk0 V c 0 t) (iblk0 V c 1 t)) j).trans ?_
  have hr : ((((cfg0.win 2).blk t).view.emb j) 0 : Fin _).val = 5000 * t.val + (j 0).val := by
    show win0_2.index t 0 * 5000 + 1 * (j 0).val = _; rw [e4]; omega
  have hq : ((((cfg0.win 2).blk t).view.emb j) 1 : Fin _).val = (j 1).val := by
    show win0_2.index t 1 * 32 + 1 * (j 1).val = _; rw [e5]; omega
  refine Cert.Branch.prod_at (a := 5000) (k := 512) (n := 32) (N := 100000) (V c main_arg0) (V c main_arg2)
    (iblk0 V c 0 t) (iblk0 V c 1 t) j (((cfg0.win 2).blk t).view.emb j) (fun q => ?_) (fun y => ?_) (Fin.ext hq.symm)
  · exact lhs0_apply V c t _ _ hr rfl
  · exact rhs0_apply V c t y

/-- An index of the result is in point t's block iff each coordinate is in the block's range on its axis. -/
theorem mem_blk0 (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v29).slice (win0_2.rect t)).set ↔ _
  rw [View.set_slice_whole, Rect.mem_set_unit]
  exact Iff.rfl

/-- Row r of the result is written by point r / 5000. -/
theorem cover0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  have ht : (i 0).val / 5000 < cfg0.N := by rw [hN]; omega
  obtain ⟨-, -, -, -, e4, e5⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ 0 * 5000 ≤ (i 0).val
      ∧ (i 0).val < win0_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ 1 * 32 ≤ (i 1).val
      ∧ (i 1).val < win0_2.index ⟨(i 0).val / 5000, ht⟩ 1 * 32 + 32
    rw [e5]; omega

/-- The result array after the launch is the product of the two arrays as the launch found them. -/
theorem final0 (c : Dev nD) : (dat0 V c).arrAt 2 cfg0.N
    = Cert.Dense.prod (a := 100000) (k := 512) (n := 32) (V c main_arg0) (V c main_arg2) :=
  (dat0 V c).arrAt_eq_of_cover 2 _ (fun t _ => flushed0 V c t) cover0

end Cert.KernelIdeal.Hand

end
-- ==== Proof.LibGcnCombine.lean ====
/-
  The node update of a graph convolution, read at an entry, on the extended reals.

  For the summed neighbour messages A : [a, n], the node's own projected features H : [a, n], the self-loop weight
  kept as a column D : [a, 1] and a bias vector b : [n] the update is

      comb (r, q)     = A (r, q) + H (r, q) * D (r, 0) + b (q)
      combRelu (r, q) = max (comb (r, q)) 0

  A tile of rows spells it with the column spread over the columns and the bias, cast to a row, spread over the rows,
  and rectifies against a scalar zero spread over the tile; the whole-array program lays the column, the bias and a
  scalar zero out by broadcast_in_dim.  Both are the functions above.  Entry (r, q) reads only row r of A, H and D,
  so the function of a block of rows is the block of the function of the whole arrays.
-/
import Idealize.ShloMosaic.Lib.Pipeline.Value
import Idealize.ShloMosaic.Lib.ValueIdx
import Idealize.ShloMosaic.Lib.ValueLayout
import Idealize.ShloMosaic.PureOps.Ideal.Laws
import proofs.«102378_j2207613190838_1_alg».proof.Proof.LibKeepdims
import proofs.«102378_j2207613190838_1_alg».proof.Proof.LibDenseLayer

noncomputable section

namespace Cert.GcnCombine

open Idealize.ShloMosaic Idealize.ShloMosaic.ValueIdx

variable {a n N : ℕ}

/-- The node update before rectification, at an entry. -/
def comb (A H : (⟨2, ![a, n]⟩ : Shape).Idx → EReal) (D : (⟨2, ![a, 1]⟩ : Shape).Idx → EReal)
    (b : (⟨1, ![n]⟩ : Shape).Idx → EReal) : (⟨2, ![a, n]⟩ : Shape).Idx → EReal :=
  fun i => A i + H i * D (ix2 (i 0) (0 : Fin 1)) + b (ix1 (i 1))

/-- The rectified node update, at an entry. -/
def combRelu (A H : (⟨2, ![a, n]⟩ : Shape).Idx → EReal) (D : (⟨2, ![a, 1]⟩ : Shape).Idx → EReal)
    (b : (⟨1, ![n]⟩ : Shape).Idx → EReal) : (⟨2, ![a, n]⟩ : Shape).Idx → EReal :=
  fun i => max (comb A H D b i) (Ideal.ofBits .f32 0x00000000#32)

theorem comb_ix2 (A H : (⟨2, ![a, n]⟩ : Shape).Idx → EReal) (D : (⟨2, ![a, 1]⟩ : Shape).Idx → EReal)
    (b : (⟨1, ![n]⟩ : Shape).Idx → EReal) (r : Fin a) (q : Fin n) :
    comb A H D b (ix2 r q) = A (ix2 r q) + H (ix2 r q) * D (ix2 r (0 : Fin 1)) + b (ix1 q) := rfl

/-! ## An entry only reads its own row -/

/-- If row (j 0) of the blocks is row (i 0) of the arrays, the biases agree and the columns agree, the update's entry
    j over the blocks is the update's entry i over the arrays. -/
theorem comb_at (A H : (⟨2, ![N, n]⟩ : Shape).Idx → EReal) (D : (⟨2, ![N, 1]⟩ : Shape).Idx → EReal)
    (b : (⟨1, ![n]⟩ : Shape).Idx → EReal)
    (ab hb : (⟨2, ![a, n]⟩ : Shape).Idx → EReal) (db : (⟨2, ![a, 1]⟩ : Shape).Idx → EReal)
    (bb : (⟨1, ![n]⟩ : Shape).Idx → EReal)
    (j : (⟨2, ![a, n]⟩ : Shape).Idx) (i : (⟨2, ![N, n]⟩ : Shape).Idx)
    (hA : ab j = A i) (hH : hb j = H i)
    (hD : db (ix2 (j 0) (0 : Fin 1)) = D (ix2 (i 0) (0 : Fin 1))) (hbias : ∀ y, bb y = b y) (hq : j 1 = i 1) :
    comb ab hb db bb j = comb A H D b i := by
  show ab j + hb j * db (ix2 (j 0) (0 : Fin 1)) + bb (ix1 (j 1)) = A i + H i * D (ix2 (i 0) (0 : Fin 1)) + b (ix1 (i 1))
  rw [hA, hH, hD, hbias, hq]

/-- The same for the rectified update. -/
theorem combRelu_at (A H : (⟨2, ![N, n]⟩ : Shape).Idx → EReal) (D : (⟨2, ![N, 1]⟩ : Shape).Idx → EReal)
    (b : (⟨1, ![n]⟩ : Shape).Idx → EReal)
    (ab hb : (⟨2, ![a, n]⟩ : Shape).Idx → EReal) (db : (⟨2, ![a, 1]⟩ : Shape).Idx → EReal)
    (bb : (⟨1, ![n]⟩ : Shape).Idx → EReal)
    (j : (⟨2, ![a, n]⟩ : Shape).Idx) (i : (⟨2, ![N, n]⟩ : Shape).Idx)
    (hA : ab j = A i) (hH : hb j = H i)
    (hD : db (ix2 (j 0) (0 : Fin 1)) = D (ix2 (i 0) (0 : Fin 1))) (hbias : ∀ y, bb y = b y) (hq : j 1 = i 1) :
    combRelu ab hb db bb j = combRelu A H D b i := by
  show max (comb ab hb db bb j) _ = max (comb A H D b i) _
  rw [comb_at A H D b ab hb db bb j i hA hH hD hbias hq]

/-! ## Layouts of the bias and of the scalar zero -/

/-- A scalar laid over [a, n] by broadcast_in_dim along no axis reads the scalar everywhere. -/
theorem bcast_scalar_apply {α : Type} (sc : (⟨0, ![]⟩ : Shape).Idx → α)
    (h : (⟨0, ![]⟩ : Shape).BroadcastsInDim ⟨2, ![a, n]⟩ ![]) (i : (⟨2, ![a, n]⟩ : Shape).Idx) :
    broadcastInDim ⟨2, ![a, n]⟩ ![] h sc i = sc ix0 :=
  broadcastInDim_apply ![] h sc i ix0 fun ax => ax.elim0

/-- A vector [n] laid out as the row [1, n] by broadcast_in_dim along axis 1 reads, at (u, q), the vector at q. -/
theorem bcast_vec_row_apply {α : Type} (x : (⟨1, ![n]⟩ : Shape).Idx → α)
    (h : (⟨1, ![n]⟩ : Shape).BroadcastsInDim ⟨2, ![1, n]⟩ ![1]) (u : Fin 1) (q : Fin n) :
    broadcastInDim ⟨2, ![1, n]⟩ ![1] h x (ix2 u q) = x (ix1 q) := by
  refine broadcastInDim_apply ![1] h x (ix2 u q) (ix1 q) fun ax => ?_
  match ax with
  | ⟨0, _⟩ =>
    show q.val = if n = 1 then 0 else q.val
    split
    · have := q.isLt; omega
    · rfl

/-! ## The update in the two spellings -/

/-- On a tile: the messages plus the features times the column spread over the columns, plus the bias cast to a row
    and spread over the rows. -/
theorem tile_comb (x0 x1 : FVec Ideal ⟨2, ![a, n]⟩ .f32) (x2 : FVec Ideal ⟨2, ![a, 1]⟩ .f32) (x3 : FVec Ideal ⟨1, ![n]⟩ .f32)
    (hc0 : (⟨2, ![a, n]⟩ : Shape).ShapeCasts ⟨2, ![a, n]⟩) (hc2 : (⟨2, ![a, 1]⟩ : Shape).ShapeCasts ⟨2, ![a, 1]⟩)
    (hb2 : (⟨2, ![a, 1]⟩ : Shape).Broadcasts ⟨2, ![a, n]⟩)
    (hc3 : (⟨1, ![n]⟩ : Shape).ShapeCasts ⟨2, ![1, n]⟩) (hc3' : (⟨2, ![1, n]⟩ : Shape).ShapeCasts ⟨2, ![1, n]⟩)
    (hb3 : (⟨2, ![1, n]⟩ : Shape).Broadcasts ⟨2, ![a, n]⟩) :
    addf (addf (shapeCast ⟨2, ![a, n]⟩ x0 hc0)
          (mulf (shapeCast ⟨2, ![a, n]⟩ x1 hc0) (broadcastTo ⟨2, ![a, n]⟩ (shapeCast ⟨2, ![a, 1]⟩ x2 hc2) hb2)))
        (broadcastTo ⟨2, ![a, n]⟩ (shapeCast ⟨2, ![1, n]⟩ (shapeCast ⟨2, ![1, n]⟩ x3 hc3) hc3') hb3)
      = comb x0 x1 x2 x3 := by
  funext i
  obtain ⟨r, q, rfl⟩ : ∃ (r : Fin a) (q : Fin n), i = ix2 r q := ⟨i 0, i 1, eq_ix2 i⟩
  rw [addf_apply, addf_apply, mulf_apply, shapeCast_self, shapeCast_self, Cert.LibKeepdims.broadcastTo_a1_ab_apply,
    shapeCast_self, Cert.LibKeepdims.row_spread_apply, shapeCast_a_1a_apply]
  rfl

/-- On a tile, rectified against the scalar zero spread over the tile. -/
theorem tile_combRelu (x0 x1 : FVec Ideal ⟨2, ![a, n]⟩ .f32) (x2 : FVec Ideal ⟨2, ![a, 1]⟩ .f32) (x3 : FVec Ideal ⟨1, ![n]⟩ .f32)
    (hc0 : (⟨2, ![a, n]⟩ : Shape).ShapeCasts ⟨2, ![a, n]⟩) (hc2 : (⟨2, ![a, 1]⟩ : Shape).ShapeCasts ⟨2, ![a, 1]⟩)
    (hb2 : (⟨2, ![a, 1]⟩ : Shape).Broadcasts ⟨2, ![a, n]⟩)
    (hc3 : (⟨1, ![n]⟩ : Shape).ShapeCasts ⟨2, ![1, n]⟩) (hc3' : (⟨2, ![1, n]⟩ : Shape).ShapeCasts ⟨2, ![1, n]⟩)
    (hb3 : (⟨2, ![1, n]⟩ : Shape).Broadcasts ⟨2, ![a, n]⟩) :
    maximumf (addf (addf (shapeCast ⟨2, ![a, n]⟩ x0 hc0)
          (mulf (shapeCast ⟨2, ![a, n]⟩ x1 hc0) (broadcastTo ⟨2, ![a, n]⟩ (shapeCast ⟨2, ![a, 1]⟩ x2 hc2) hb2)))
        (broadcastTo ⟨2, ![a, n]⟩ (shapeCast ⟨2, ![1, n]⟩ (shapeCast ⟨2, ![1, n]⟩ x3 hc3) hc3') hb3))
      (broadcast ⟨2, ![a, n]⟩ (Scalar.ofBits (F := Ideal) .f32 0x00000000#32))
      = combRelu x0 x1 x2 x3 := by
  rw [tile_comb x0 x1 x2 x3 hc0 hc2 hb2 hc3 hc3' hb3]
  rfl

/-- On the whole array: the messages plus the features times the column laid over the columns, plus the bias laid out
    as a row and then over the rows. -/
theorem host_comb (A H : FVec Ideal ⟨2, ![a, n]⟩ .f32) (D : FVec Ideal ⟨2, ![a, 1]⟩ .f32) (b : FVec Ideal ⟨1, ![n]⟩ .f32)
    (hD : (⟨2, ![a, 1]⟩ : Shape).BroadcastsInDim ⟨2, ![a, n]⟩ ![0, 1])
    (hb1 : (⟨1, ![n]⟩ : Shape).BroadcastsInDim ⟨2, ![1, n]⟩ ![1])
    (hB : (⟨2, ![1, n]⟩ : Shape).BroadcastsInDim ⟨2, ![a, n]⟩ ![0, 1]) :
    addf (addf A (mulf H (broadcastInDim ⟨2, ![a, n]⟩ ![0, 1] hD D)))
        (broadcastInDim ⟨2, ![a, n]⟩ ![0, 1] hB (broadcastInDim ⟨2, ![1, n]⟩ ![1] hb1 b))
      = comb A H D b := by
  funext i
  obtain ⟨r, q, rfl⟩ : ∃ (r : Fin a) (q : Fin n), i = ix2 r q := ⟨i 0, i 1, eq_ix2 i⟩
  rw [addf_apply, addf_apply, mulf_apply, Cert.Dense.bcast_col_apply, Cert.Dense.bcast_row_apply, bcast_vec_row_apply]
  rfl

/-- On the whole array, rectified against a scalar zero laid over everything. -/
theorem host_combRelu (A H : FVec Ideal ⟨2, ![a, n]⟩ .f32) (D : FVec Ideal ⟨2, ![a, 1]⟩ .f32) (b : FVec Ideal ⟨1, ![n]⟩ .f32)
    (hD : (⟨2, ![a, 1]⟩ : Shape).BroadcastsInDim ⟨2, ![a, n]⟩ ![0, 1])
    (hb1 : (⟨1, ![n]⟩ : Shape).BroadcastsInDim ⟨2, ![1, n]⟩ ![1])
    (hB : (⟨2, ![1, n]⟩ : Shape).BroadcastsInDim ⟨2, ![a, n]⟩ ![0, 1])
    (h0 : (⟨0, ![]⟩ : Shape).BroadcastsInDim ⟨2, ![a, n]⟩ ![]) :
    maximumf (addf (addf A (mulf H (broadcastInDim ⟨2, ![a, n]⟩ ![0, 1] hD D)))
        (broadcastInDim ⟨2, ![a, n]⟩ ![0, 1] hB (broadcastInDim ⟨2, ![1, n]⟩ ![1] hb1 b)))
      (broadcastInDim ⟨2, ![a, n]⟩ ![] h0 (constant (F := Ideal) ⟨0, ![]⟩ .f32 0x00000000#32))
      = combRelu A H D b := by
  rw [host_comb A H D b hD hb1 hB]
  funext i
  rw [maximumf_apply, bcast_scalar_apply]
  rfl

end Cert.GcnCombine

end
-- ==== Proof.Region1.lean ====
/-
  Launch 1: the node update tiled by rows.  The grid has 20 points; point t reads rows 5000 t … 5000 t + 4999 of the
  summed messages [100000, 32], of the node's own projected features [100000, 32] and of the self-loop weight column
  [100000, 1], and the whole bias [32], and writes rows 5000 t … 5000 t + 4999 of the [100000, 32] result:
  messages + features * weight + bias, rectified.  An entry reads only its own row, so each written block is the block
  of the update of the whole arrays; the 20 blocks tile the result, which therefore ends as that update.
-/
import proofs.«102378_j2207613190838_1_alg».proof.Proof.Gen.KernelIdeal.Frame
import proofs.«102378_j2207613190838_1_alg».proof.Proof.LibGcnCombine
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz_1 : (![0, 0] : Fin 2 → Nat) = fun _ => 0 := funext fun a => by fin_cases a <;> rfl
theorem hz1_1 : (![0] : Fin 1 → Nat) = fun _ => 0 := funext fun a => by fin_cases a; rfl

/-- The body's arithmetic on a tile is the update of the tile's four blocks. -/
theorem pay1_eq (x0 x1 : Vec Ideal S5000x32 .f32) (x2 : Vec Ideal S5000x1 .f32) (x3 : Vec Ideal S32 .f32) :
    k1_pay1 x0 x1 x2 x3 = Cert.GcnCombine.combRelu (a := 5000) (n := 32) x0 x1 x2 x3 :=
  Cert.GcnCombine.tile_combRelu x0 x1 x2 x3 shapeCasts_S5000x32_S5000x32 shapeCasts_S5000x1_S5000x1 broadcasts_S5000x1_S5000x32
    shapeCasts_S32_S1x32 shapeCasts_S1x32_S1x32 broadcasts_S1x32_S5000x32

/-- Where each window's block sits at point t: the three row-tiled operands and the result move down 5000 rows per
    point, the bias stays. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The messages' block at point t is rows 5000 t … of the array. -/
theorem msg1_apply (c : Dev nD) (t : Fin cfg1.N) (y : S5000x32.Idx) (i : S100000x32.Idx)
    (h0 : (i 0).val = 5000 * t.val + (y 0).val) (h1 : (i 1).val = (y 1).val) :
    (iblk1 V c 0 t : Vec Ideal S5000x32 .f32) y = (V c main_v41 : S100000x32.Idx → EReal) i := by
  obtain ⟨e0, e1, -⟩ := idx1 t
  unfold iblk1
  rw [View.read_apply]
  show V c main_v41 _ = V c main_v41 _
  congr 1
  funext a
  apply Fin.ext
  match a with
  | ⟨0, _⟩ => show win1_0.index t 0 * 5000 + 1 * (y 0).val = (i 0).val; rw [e0, h0]; omega
  | ⟨1, _⟩ => show win1_0.index t 1 * 32 + 1 * (y 1).val = (i 1).val; rw [e1, h1]; omega

/-- The features' block at point t is rows 5000 t … of the array. -/
theorem feat1_apply (c : Dev nD) (t : Fin cfg1.N) (y : S5000x32.Idx) (i : S100000x32.Idx)
    (h0 : (i 0).val = 5000 * t.val + (y 0).val) (h1 : (i 1).val = (y 1).val) :
    (iblk1 V c 1 t : Vec Ideal S5000x32 .f32) y = (V c main_v29 : S100000x32.Idx → EReal) i := by
  obtain ⟨-, -, e2, e3, -⟩ := idx1 t
  unfold iblk1
  rw [View.read_apply]
  show V c main_v29 _ = V c main_v29 _
  congr 1
  funext a
  apply Fin.ext
  match a with
  | ⟨0, _⟩ => show win1_1.index t 0 * 5000 + 1 * (y 0).val = (i 0).val; rw [e2, h0]; omega
  | ⟨1, _⟩ => show win1_1.index t 1 * 32 + 1 * (y 1).val = (i 1).val; rw [e3, h1]; omega

/-- The weight column's block at point t is rows 5000 t … of the column. -/
theorem col1_apply (c : Dev nD) (t : Fin cfg1.N) (y : S5000x1.Idx) (i : S100000x1.Idx)
    (h0 : (i 0).val = 5000 * t.val + (y 0).val) (h1 : (i 1).val = (y 1).val) :
    (iblk1 V c 2 t : Vec Ideal S5000x1 .f32) y = (V c main_v12 : S100000x1.Idx → EReal) i := by
  obtain ⟨-, -, -, -, e4, e5, -⟩ := idx1 t
  unfold iblk1
  rw [View.read_apply]
  show V c main_v12 _ = V c main_v12 _
  congr 1
  funext a
  apply Fin.ext
  match a with
  | ⟨0, _⟩ => show win1_2.index t 0 * 5000 + 1 * (y 0).val = (i 0).val; rw [e4, h0]; omega
  | ⟨1, _⟩ => show win1_2.index t 1 * 1 + 1 * (y 1).val = (i 1).val; rw [e5, h1]; omega

/-- The bias's block at every point is the whole vector. -/
theorem bias1_apply (c : Dev nD) (t : Fin cfg1.N) (y : S32.Idx) :
    (iblk1 V c 3 t : Vec Ideal S32 .f32) y = (V c main_arg3 : S32.Idx → EReal) y := by
  obtain ⟨-, -, -, -, -, -, e6, -⟩ := idx1 t
  unfold iblk1
  rw [View.read_apply]
  show V c main_arg3 _ = V c main_arg3 _
  congr 1
  funext a
  apply Fin.ext
  match a with
  | ⟨0, _⟩ => show win1_3.index t 0 * 32 + 1 * (y 0).val = (y 0).val; rw [e6]; omega

/-- What point t writes back is block t of the update of the whole arrays. -/
theorem flushed1 (c : Dev nD) (t : Fin cfg1.N) :
    (dat1 V c).flushed 4 t = ((cfg1.win 4).blk t).view.read (Elt Ideal)
      (Cert.GcnCombine.combRelu (a := 100000) (n := 32) (V c main_v41) (V c main_v29) (V c main_v12) (V c main_arg3)) := by
  show (cfg1.win 4).cut (grid1.coords t) ((dat1 V c).after 4 t) = _
  rw [after1_4]
  unfold out1_4
  rw [View.canon_unit_zero hz_1]
  simp only [View.ld_unit_zero (S := S5000x32) hz_1, View.ld_unit_zero (S := S5000x1) hz_1, View.ld_unit_zero (S := S32) hz1_1]
  obtain ⟨-, -, -, -, -, -, -, e7, e8⟩ := idx1 t
  funext j
  show k1_pay1 (iblk1 V c 0 t) (iblk1 V c 1 t) (iblk1 V c 2 t) (iblk1 V c 3 t) j
    = Cert.GcnCombine.combRelu (a := 100000) (n := 32) (V c main_v41) (V c main_v29) (V c main_v12) (V c main_arg3)
        (((cfg1.win 4).blk t).view.emb j)
  refine (congrFun (pay1_eq (iblk1 V c 0 t) (iblk1 V c 1 t) (iblk1 V c 2 t) (iblk1 V c 3 t)) j).trans ?_
  have hr : ((((cfg1.win 4).blk t).view.emb j) 0 : Fin _).val = 5000 * t.val + (j 0).val := by
    show win1_4.index t 0 * 5000 + 1 * (j 0).val = _; rw [e7]; omega
  have hq : ((((cfg1.win 4).blk t).view.emb j) 1 : Fin _).val = (j 1).val := by
    show win1_4.index t 1 * 32 + 1 * (j 1).val = _; rw [e8]; omega
  refine Cert.GcnCombine.combRelu_at (a := 5000) (n := 32) (N := 100000) (V c main_v41) (V c main_v29) (V c main_v12) (V c main_arg3)
    (iblk1 V c 0 t) (iblk1 V c 1 t) (iblk1 V c 2 t) (iblk1 V c 3 t) j (((cfg1.win 4).blk t).view.emb j)
    ?_ ?_ ?_ (fun y => ?_) (Fin.ext hq.symm)
  · exact msg1_apply V c t _ _ hr hq
  · exact feat1_apply V c t _ _ hr hq
  · exact col1_apply V c t _ _ hr rfl
  · exact bias1_apply V c t y

/-- An index of the result is in point t's block iff each coordinate is in the block's range on its axis. -/
theorem mem_blk1 (t : Fin cfg1.N) (i : S100000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v42).slice (win1_4.rect t)).set ↔ _
  rw [View.set_slice_whole, Rect.mem_set_unit]
  exact Iff.rfl

/-- Row r of the result is written by point r / 5000. -/
theorem cover1 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have hN : cfg1.N = 20 := N_1
  have ht : (i 0).val / 5000 < cfg1.N := by rw [hN]; omega
  obtain ⟨-, -, -, -, -, -, -, e7, e8⟩ := idx1 ⟨(i 0).val / 5000, ht⟩
  refine ⟨⟨(i 0).val / 5000, ht⟩, flush1_4 _, ?_⟩
  rw [mem_blk1]
  intro a
  match a with
  | ⟨0, _⟩ =>
    show win1_4.index ⟨(i 0).val / 5000, ht⟩ 0 * 5000 ≤ (i 0).val
      ∧ (i 0).val < win1_4.index ⟨(i 0).val / 5000, ht⟩ 0 * 5000 + 5000
    rw [e7]; show (i 0).val / 5000 * 5000 ≤ (i 0).val ∧ (i 0).val < (i 0).val / 5000 * 5000 + 5000; omega
  | ⟨1, _⟩ =>
    show win1_4.index ⟨(i 0).val / 5000, ht⟩ 1 * 32 ≤ (i 1).val
      ∧ (i 1).val < win1_4.index ⟨(i 0).val / 5000, ht⟩ 1 * 32 + 32
    rw [e8]; omega

/-- The result array after the launch is the update of the four arrays as the launch found them. -/
theorem final1 (c : Dev nD) : (dat1 V c).arrAt 4 cfg1.N
    = Cert.GcnCombine.combRelu (a := 100000) (n := 32) (V c main_v41) (V c main_v29) (V c main_v12) (V c main_arg3) :=
  (dat1 V c).arrAt_eq_of_cover 4 _ (fun t _ => flushed1 V c t) cover1

end Cert.KernelIdeal.Hand

end
-- ==== Proof.Region2.lean ====
/-
  Launch 2: a matrix product tiled by rows.  The grid has 20 points; point t reads rows 5000 t … 5000 t + 4999 of the
  [100000, 32] left operand and the whole [32, 16] right operand, and writes rows 5000 t … 5000 t + 4999 of the
  [100000, 16] result.  An entry of a product reads only its own row of the left operand, so each written block is
  the block of the product of the whole arrays; the 20 blocks tile the result, which therefore ends as that product.
-/
import proofs.«102378_j2207613190838_1_alg».proof.Proof.Gen.KernelIdeal.Frame
import proofs.«102378_j2207613190838_1_alg».proof.Proof.LibDenseBranch
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz_2 : (![0, 0] : Fin 2 → Nat) = fun _ => 0 := funext fun a => by fin_cases a <;> rfl

/-- The body's arithmetic on a tile is the product of the tile's two blocks. -/
theorem pay2_eq (x0 : Vec Ideal S5000x32 .f32) (x1 : Vec Ideal S32x16 .f32) :
    k2_pay1 x0 x1 = Cert.Dense.prod (a := 5000) (k := 32) (n := 16) x0 x1 :=
  (Cert.Dense.matmul_eq_prod dot_S5000x32_S32x16_S5000x16_1_0_0_1_n_n rfl rfl rfl rfl rfl rfl
    (shapeCast S5000x32 x0 shapeCasts_S5000x32_S5000x32) x1 bitsLt_bf16_f32).trans (by rw [shapeCast_self])

/-- Where each window's block sits at point t: the left operand and the result move down 5000 rows per point, the
    right operand stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 5000 t … of the array. -/
theorem lhs2_apply (c : Dev nD) (t : Fin cfg2.N) (y : S5000x32.Idx) (i : S100000x32.Idx)
    (h0 : (i 0).val = 5000 * t.val + (y 0).val) (h1 : (i 1).val = (y 1).val) :
    (iblk2 V c 0 t : Vec Ideal S5000x32 .f32) y = (V c main_v42 : S100000x32.Idx → EReal) i := by
  obtain ⟨e0, e1, -⟩ := idx2 t
  unfold iblk2
  rw [View.read_apply]
  show V c main_v42 _ = V c main_v42 _
  congr 1
  funext a
  apply Fin.ext
  match a with
  | ⟨0, _⟩ => show win2_0.index t 0 * 5000 + 1 * (y 0).val = (i 0).val; rw [e0, h0]; omega
  | ⟨1, _⟩ => show win2_0.index t 1 * 32 + 1 * (y 1).val = (i 1).val; rw [e1, h1]; omega

/-- The right operand's block at every point is the whole array. -/
theorem rhs2_apply (c : Dev nD) (t : Fin cfg2.N) (y : S32x16.Idx) :
    (iblk2 V c 1 t : Vec Ideal S32x16 .f32) y = (V c main_arg4 : S32x16.Idx → EReal) y := by
  obtain ⟨-, -, e2, e3, -⟩ := idx2 t
  unfold iblk2
  rw [View.read_apply]
  show V c main_arg4 _ = V c main_arg4 _
  congr 1
  funext a
  apply Fin.ext
  match a with
  | ⟨0, _⟩ => show win2_1.index t 0 * 32 + 1 * (y 0).val = (y 0).val; rw [e2]; omega
  | ⟨1, _⟩ => show win2_1.index t 1 * 16 + 1 * (y 1).val = (y 1).val; rw [e3]; omega

/-- What point t writes back is block t of the product of the whole arrays. -/
theorem flushed2 (c : Dev nD) (t : Fin cfg2.N) :
    (dat2 V c).flushed 2 t = ((cfg2.win 2).blk t).view.read (Elt Ideal)
      (Cert.Dense.prod (a := 100000) (k := 32) (n := 16) (V c main_v42) (V c main_arg4)) := by
  show (cfg2.win 2).cut (grid2.coords t) ((dat2 V c).after 2 t) = _
  rw [after2_2]
  unfold out2_2
  rw [View.canon_unit_zero hz_2]
  simp only [View.ld_unit_zero (S := S5000x32) hz_2, View.ld_unit_zero (S := S32x16) hz_2]
  obtain ⟨-, -, -, -, e4, e5⟩ := idx2 t
  funext j
  show k2_pay1 (iblk2 V c 0 t) (iblk2 V c 1 t) j
    = Cert.Dense.prod (a := 100000) (k := 32) (n := 16) (V c main_v42) (V c main_arg4) (((cfg2.win 2).blk t).view.emb j)
  refine (congrFun (pay2_eq (iblk2 V c 0 t) (iblk2 V c 1 t)) j).trans ?_
  have hr : ((((cfg2.win 2).blk t).view.emb j) 0 : Fin _).val = 5000 * t.val + (j 0).val := by
    show win2_2.index t 0 * 5000 + 1 * (j 0).val = _; rw [e4]; omega
  have hq : ((((cfg2.win 2).blk t).view.emb j) 1 : Fin _).val = (j 1).val := by
    show win2_2.index t 1 * 16 + 1 * (j 1).val = _; rw [e5]; omega
  refine Cert.Branch.prod_at (a := 5000) (k := 32) (n := 16) (N := 100000) (V c main_v42) (V c main_arg4)
    (iblk2 V c 0 t) (iblk2 V c 1 t) j (((cfg2.win 2).blk t).view.emb j) (fun q => ?_) (fun y => ?_) (Fin.ext hq.symm)
  · exact lhs2_apply V c t _ _ hr rfl
  · exact rhs2_apply V c t y

/-- An index of the result is in point t's block iff each coordinate is in the block's range on its axis. -/
theorem mem_blk2 (t : Fin cfg2.N) (i : S100000x16.Idx) :
    i ∈ ((cfg2.win 2).blk t).view.set ↔ ∀ a : Fin 2, win2_2.index t a * S5000x16.size a ≤ (i a).val
      ∧ (i a).val < win2_2.index t a * S5000x16.size a + S5000x16.size a := by
  show i ∈ ((View.whole main_v43).slice (win2_2.rect t)).set ↔ _
  rw [View.set_slice_whole, Rect.mem_set_unit]
  exact Iff.rfl

/-- Row r of the result is written by point r / 5000. -/
theorem cover2 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 20 := N_2
  have ht : (i 0).val / 5000 < cfg2.N := by rw [hN]; omega
  obtain ⟨-, -, -, -, e4, e5⟩ := idx2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ 0 * 5000 ≤ (i 0).val
      ∧ (i 0).val < win2_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ 1 * 16 ≤ (i 1).val
      ∧ (i 1).val < win2_2.index ⟨(i 0).val / 5000, ht⟩ 1 * 16 + 16
    rw [e5]; omega

/-- The result array after the launch is the product of the two arrays as the launch found them. -/
theorem final2 (c : Dev nD) : (dat2 V c).arrAt 2 cfg2.N
    = Cert.Dense.prod (a := 100000) (k := 32) (n := 16) (V c main_v42) (V c main_arg4) :=
  (dat2 V c).arrAt_eq_of_cover 2 _ (fun t _ => flushed2 V c t) cover2

end Cert.KernelIdeal.Hand

end
-- ==== Proof.Region3.lean ====
/-
  Launch 3: the node update tiled by rows.  The grid has 20 points; point t reads rows 5000 t … 5000 t + 4999 of the
  summed messages [100000, 16], of the node's own projected features [100000, 16] and of the self-loop weight column
  [100000, 1], and the whole bias [16], and writes rows 5000 t … 5000 t + 4999 of the [100000, 16] result:
  messages + features * weight + bias, rectified.  An entry reads only its own row, so each written block is the block
  of the update of the whole arrays; the 20 blocks tile the result, which therefore ends as that update.
-/
import proofs.«102378_j2207613190838_1_alg».proof.Proof.Gen.KernelIdeal.Frame
import proofs.«102378_j2207613190838_1_alg».proof.Proof.LibGcnCombine
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz_3 : (![0, 0] : Fin 2 → Nat) = fun _ => 0 := funext fun a => by fin_cases a <;> rfl
theorem hz1_3 : (![0] : Fin 1 → Nat) = fun _ => 0 := funext fun a => by fin_cases a; rfl

/-- The body's arithmetic on a tile is the update of the tile's four blocks. -/
theorem pay3_eq (x0 x1 : Vec Ideal S5000x16 .f32) (x2 : Vec Ideal S5000x1 .f32) (x3 : Vec Ideal S16 .f32) :
    k3_pay1 x0 x1 x2 x3 = Cert.GcnCombine.combRelu (a := 5000) (n := 16) x0 x1 x2 x3 :=
  Cert.GcnCombine.tile_combRelu x0 x1 x2 x3 shapeCasts_S5000x16_S5000x16 shapeCasts_S5000x1_S5000x1 broadcasts_S5000x1_S5000x16
    shapeCasts_S16_S1x16 shapeCasts_S1x16_S1x16 broadcasts_S1x16_S5000x16

/-- Where each window's block sits at point t: the three row-tiled operands and the result move down 5000 rows per
    point, the bias stays. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- The messages' block at point t is rows 5000 t … of the array. -/
theorem msg3_apply (c : Dev nD) (t : Fin cfg3.N) (y : S5000x16.Idx) (i : S100000x16.Idx)
    (h0 : (i 0).val = 5000 * t.val + (y 0).val) (h1 : (i 1).val = (y 1).val) :
    (iblk3 V c 0 t : Vec Ideal S5000x16 .f32) y = (V c main_v55 : S100000x16.Idx → EReal) i := by
  obtain ⟨e0, e1, -⟩ := idx3 t
  unfold iblk3
  rw [View.read_apply]
  show V c main_v55 _ = V c main_v55 _
  congr 1
  funext a
  apply Fin.ext
  match a with
  | ⟨0, _⟩ => show win3_0.index t 0 * 5000 + 1 * (y 0).val = (i 0).val; rw [e0, h0]; omega
  | ⟨1, _⟩ => show win3_0.index t 1 * 16 + 1 * (y 1).val = (i 1).val; rw [e1, h1]; omega

/-- The features' block at point t is rows 5000 t … of the array. -/
theorem feat3_apply (c : Dev nD) (t : Fin cfg3.N) (y : S5000x16.Idx) (i : S100000x16.Idx)
    (h0 : (i 0).val = 5000 * t.val + (y 0).val) (h1 : (i 1).val = (y 1).val) :
    (iblk3 V c 1 t : Vec Ideal S5000x16 .f32) y = (V c main_v43 : S100000x16.Idx → EReal) i := by
  obtain ⟨-, -, e2, e3, -⟩ := idx3 t
  unfold iblk3
  rw [View.read_apply]
  show V c main_v43 _ = V c main_v43 _
  congr 1
  funext a
  apply Fin.ext
  match a with
  | ⟨0, _⟩ => show win3_1.index t 0 * 5000 + 1 * (y 0).val = (i 0).val; rw [e2, h0]; omega
  | ⟨1, _⟩ => show win3_1.index t 1 * 16 + 1 * (y 1).val = (i 1).val; rw [e3, h1]; omega

/-- The weight column's block at point t is rows 5000 t … of the column. -/
theorem col3_apply (c : Dev nD) (t : Fin cfg3.N) (y : S5000x1.Idx) (i : S100000x1.Idx)
    (h0 : (i 0).val = 5000 * t.val + (y 0).val) (h1 : (i 1).val = (y 1).val) :
    (iblk3 V c 2 t : Vec Ideal S5000x1 .f32) y = (V c main_v12 : S100000x1.Idx → EReal) i := by
  obtain ⟨-, -, -, -, e4, e5, -⟩ := idx3 t
  unfold iblk3
  rw [View.read_apply]
  show V c main_v12 _ = V c main_v12 _
  congr 1
  funext a
  apply Fin.ext
  match a with
  | ⟨0, _⟩ => show win3_2.index t 0 * 5000 + 1 * (y 0).val = (i 0).val; rw [e4, h0]; omega
  | ⟨1, _⟩ => show win3_2.index t 1 * 1 + 1 * (y 1).val = (i 1).val; rw [e5, h1]; omega

/-- The bias's block at every point is the whole vector. -/
theorem bias3_apply (c : Dev nD) (t : Fin cfg3.N) (y : S16.Idx) :
    (iblk3 V c 3 t : Vec Ideal S16 .f32) y = (V c main_arg5 : S16.Idx → EReal) y := by
  obtain ⟨-, -, -, -, -, -, e6, -⟩ := idx3 t
  unfold iblk3
  rw [View.read_apply]
  show V c main_arg5 _ = V c main_arg5 _
  congr 1
  funext a
  apply Fin.ext
  match a with
  | ⟨0, _⟩ => show win3_3.index t 0 * 16 + 1 * (y 0).val = (y 0).val; rw [e6]; omega

/-- What point t writes back is block t of the update of the whole arrays. -/
theorem flushed3 (c : Dev nD) (t : Fin cfg3.N) :
    (dat3 V c).flushed 4 t = ((cfg3.win 4).blk t).view.read (Elt Ideal)
      (Cert.GcnCombine.combRelu (a := 100000) (n := 16) (V c main_v55) (V c main_v43) (V c main_v12) (V c main_arg5)) := by
  show (cfg3.win 4).cut (grid3.coords t) ((dat3 V c).after 4 t) = _
  rw [after3_4]
  unfold out3_4
  rw [View.canon_unit_zero hz_3]
  simp only [View.ld_unit_zero (S := S5000x16) hz_3, View.ld_unit_zero (S := S5000x1) hz_3, View.ld_unit_zero (S := S16) hz1_3]
  obtain ⟨-, -, -, -, -, -, -, e7, e8⟩ := idx3 t
  funext j
  show k3_pay1 (iblk3 V c 0 t) (iblk3 V c 1 t) (iblk3 V c 2 t) (iblk3 V c 3 t) j
    = Cert.GcnCombine.combRelu (a := 100000) (n := 16) (V c main_v55) (V c main_v43) (V c main_v12) (V c main_arg5)
        (((cfg3.win 4).blk t).view.emb j)
  refine (congrFun (pay3_eq (iblk3 V c 0 t) (iblk3 V c 1 t) (iblk3 V c 2 t) (iblk3 V c 3 t)) j).trans ?_
  have hr : ((((cfg3.win 4).blk t).view.emb j) 0 : Fin _).val = 5000 * t.val + (j 0).val := by
    show win3_4.index t 0 * 5000 + 1 * (j 0).val = _; rw [e7]; omega
  have hq : ((((cfg3.win 4).blk t).view.emb j) 1 : Fin _).val = (j 1).val := by
    show win3_4.index t 1 * 16 + 1 * (j 1).val = _; rw [e8]; omega
  refine Cert.GcnCombine.combRelu_at (a := 5000) (n := 16) (N := 100000) (V c main_v55) (V c main_v43) (V c main_v12) (V c main_arg5)
    (iblk3 V c 0 t) (iblk3 V c 1 t) (iblk3 V c 2 t) (iblk3 V c 3 t) j (((cfg3.win 4).blk t).view.emb j)
    ?_ ?_ ?_ (fun y => ?_) (Fin.ext hq.symm)
  · exact msg3_apply V c t _ _ hr hq
  · exact feat3_apply V c t _ _ hr hq
  · exact col3_apply V c t _ _ hr rfl
  · exact bias3_apply V c t y

/-- An index of the result is in point t's block iff each coordinate is in the block's range on its axis. -/
theorem mem_blk3 (t : Fin cfg3.N) (i : S100000x16.Idx) :
    i ∈ ((cfg3.win 4).blk t).view.set ↔ ∀ a : Fin 2, win3_4.index t a * S5000x16.size a ≤ (i a).val
      ∧ (i a).val < win3_4.index t a * S5000x16.size a + S5000x16.size a := by
  show i ∈ ((View.whole main_v56).slice (win3_4.rect t)).set ↔ _
  rw [View.set_slice_whole, Rect.mem_set_unit]
  exact Iff.rfl

/-- Row r of the result is written by point r / 5000. -/
theorem cover3 (i : S100000x16.Idx) :
    ∃ t : Fin cfg3.N, (cfg3.win 4).flush t = true ∧ i ∈ ((cfg3.win 4).blk t).view.set := by
  have hi0 : (i 0).val < 100000 := (i 0).isLt
  have hi1 : (i 1).val < 16 := (i 1).isLt
  have hN : cfg3.N = 20 := N_3
  have ht : (i 0).val / 5000 < cfg3.N := by rw [hN]; omega
  obtain ⟨-, -, -, -, -, -, -, e7, e8⟩ := idx3 ⟨(i 0).val / 5000, ht⟩
  refine ⟨⟨(i 0).val / 5000, ht⟩, flush3_4 _, ?_⟩
  rw [mem_blk3]
  intro a
  match a with
  | ⟨0, _⟩ =>
    show win3_4.index ⟨(i 0).val / 5000, ht⟩ 0 * 5000 ≤ (i 0).val
      ∧ (i 0).val < win3_4.index ⟨(i 0).val / 5000, ht⟩ 0 * 5000 + 5000
    rw [e7]; show (i 0).val / 5000 * 5000 ≤ (i 0).val ∧ (i 0).val < (i 0).val / 5000 * 5000 + 5000; omega
  | ⟨1, _⟩ =>
    show win3_4.index ⟨(i 0).val / 5000, ht⟩ 1 * 16 ≤ (i 1).val
      ∧ (i 1).val < win3_4.index ⟨(i 0).val / 5000, ht⟩ 1 * 16 + 16
    rw [e8]; omega

/-- The result array after the launch is the update of the four arrays as the launch found them. -/
theorem final3 (c : Dev nD) : (dat3 V c).arrAt 4 cfg3.N
    = Cert.GcnCombine.combRelu (a := 100000) (n := 16) (V c main_v55) (V c main_v43) (V c main_v12) (V c main_arg5) :=
  (dat3 V c).arrAt_eq_of_cover 4 _ (fun t _ => flushed3 V c t) cover3

end Cert.KernelIdeal.Hand

end
-- ==== Proof.Region4.lean ====
/-
  Launch 4: a matrix product tiled by rows.  The grid has 20 points; point t reads rows 5000 t … 5000 t + 4999 of the
  [100000, 16] left operand and the whole [16, 11] right operand, and writes rows 5000 t … 5000 t + 4999 of the
  [100000, 11] result.  An entry of a product reads only its own row of the left operand, so each written block is
  the block of the product of the whole arrays; the 20 blocks tile the result, which therefore ends as that product.
-/
import proofs.«102378_j2207613190838_1_alg».proof.Proof.Gen.KernelIdeal.Frame
import proofs.«102378_j2207613190838_1_alg».proof.Proof.LibDenseBranch
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz_4 : (![0, 0] : Fin 2 → Nat) = fun _ => 0 := funext fun a => by fin_cases a <;> rfl

/-- The body's arithmetic on a tile is the product of the tile's two blocks. -/
theorem pay4_eq (x0 : Vec Ideal S5000x16 .f32) (x1 : Vec Ideal S16x11 .f32) :
    k4_pay1 x0 x1 = Cert.Dense.prod (a := 5000) (k := 16) (n := 11) x0 x1 :=
  (Cert.Dense.matmul_eq_prod dot_S5000x16_S16x11_S5000x11_1_0_0_1_n_n rfl rfl rfl rfl rfl rfl
    (shapeCast S5000x16 x0 shapeCasts_S5000x16_S5000x16) x1 bitsLt_bf16_f32).trans (by rw [shapeCast_self])

/-- Where each window's block sits at point t: the left operand and the result move down 5000 rows per point, the
    right operand stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at point t is rows 5000 t … of the array. -/
theorem lhs4_apply (c : Dev nD) (t : Fin cfg4.N) (y : S5000x16.Idx) (i : S100000x16.Idx)
    (h0 : (i 0).val = 5000 * t.val + (y 0).val) (h1 : (i 1).val = (y 1).val) :
    (iblk4 V c 0 t : Vec Ideal S5000x16 .f32) y = (V c main_v56 : S100000x16.Idx → EReal) i := by
  obtain ⟨e0, e1, -⟩ := idx4 t
  unfold iblk4
  rw [View.read_apply]
  show V c main_v56 _ = V c main_v56 _
  congr 1
  funext a
  apply Fin.ext
  match a with
  | ⟨0, _⟩ => show win4_0.index t 0 * 5000 + 1 * (y 0).val = (i 0).val; rw [e0, h0]; omega
  | ⟨1, _⟩ => show win4_0.index t 1 * 16 + 1 * (y 1).val = (i 1).val; rw [e1, h1]; omega

/-- The right operand's block at every point is the whole array. -/
theorem rhs4_apply (c : Dev nD) (t : Fin cfg4.N) (y : S16x11.Idx) :
    (iblk4 V c 1 t : Vec Ideal S16x11 .f32) y = (V c main_arg6 : S16x11.Idx → EReal) y := by
  obtain ⟨-, -, e2, e3, -⟩ := idx4 t
  unfold iblk4
  rw [View.read_apply]
  show V c main_arg6 _ = V c main_arg6 _
  congr 1
  funext a
  apply Fin.ext
  match a with
  | ⟨0, _⟩ => show win4_1.index t 0 * 16 + 1 * (y 0).val = (y 0).val; rw [e2]; omega
  | ⟨1, _⟩ => show win4_1.index t 1 * 11 + 1 * (y 1).val = (y 1).val; rw [e3]; omega

/-- What point t writes back is block t of the product of the whole arrays. -/
theorem flushed4 (c : Dev nD) (t : Fin cfg4.N) :
    (dat4 V c).flushed 2 t = ((cfg4.win 2).blk t).view.read (Elt Ideal)
      (Cert.Dense.prod (a := 100000) (k := 16) (n := 11) (V c main_v56) (V c main_arg6)) := by
  show (cfg4.win 2).cut (grid4.coords t) ((dat4 V c).after 2 t) = _
  rw [after4_2]
  unfold out4_2
  rw [View.canon_unit_zero hz_4]
  simp only [View.ld_unit_zero (S := S5000x16) hz_4, View.ld_unit_zero (S := S16x11) hz_4]
  obtain ⟨-, -, -, -, e4, e5⟩ := idx4 t
  funext j
  show k4_pay1 (iblk4 V c 0 t) (iblk4 V c 1 t) j
    = Cert.Dense.prod (a := 100000) (k := 16) (n := 11) (V c main_v56) (V c main_arg6) (((cfg4.win 2).blk t).view.emb j)
  refine (congrFun (pay4_eq (iblk4 V c 0 t) (iblk4 V c 1 t)) j).trans ?_
  have hr : ((((cfg4.win 2).blk t).view.emb j) 0 : Fin _).val = 5000 * t.val + (j 0).val := by
    show win4_2.index t 0 * 5000 + 1 * (j 0).val = _; rw [e4]; omega
  have hq : ((((cfg4.win 2).blk t).view.emb j) 1 : Fin _).val = (j 1).val := by
    show win4_2.index t 1 * 11 + 1 * (j 1).val = _; rw [e5]; omega
  refine Cert.Branch.prod_at (a := 5000) (k := 16) (n := 11) (N := 100000) (V c main_v56) (V c main_arg6)
    (iblk4 V c 0 t) (iblk4 V c 1 t) j (((cfg4.win 2).blk t).view.emb j) (fun q => ?_) (fun y => ?_) (Fin.ext hq.symm)
  · exact lhs4_apply V c t _ _ hr rfl
  · exact rhs4_apply V c t y

/-- An index of the result is in point t's block iff each coordinate is in the block's range on its axis. -/
theorem mem_blk4 (t : Fin cfg4.N) (i : S100000x11.Idx) :
    i ∈ ((cfg4.win 2).blk t).view.set ↔ ∀ a : Fin 2, win4_2.index t a * S5000x11.size a ≤ (i a).val
      ∧ (i a).val < win4_2.index t a * S5000x11.size a + S5000x11.size a := by
  show i ∈ ((View.whole main_v57).slice (win4_2.rect t)).set ↔ _
  rw [View.set_slice_whole, Rect.mem_set_unit]
  exact Iff.rfl

/-- Row r of the result is written by point r / 5000. -/
theorem cover4 (i : S100000x11.Idx) :
    ∃ t : Fin cfg4.N, (cfg4.win 2).flush t = true ∧ i ∈ ((cfg4.win 2).blk t).view.set := by
  have hi0 : (i 0).val < 100000 := (i 0).isLt
  have hi1 : (i 1).val < 11 := (i 1).isLt
  have hN : cfg4.N = 20 := N_4
  have ht : (i 0).val / 5000 < cfg4.N := by rw [hN]; omega
  obtain ⟨-, -, -, -, e4, e5⟩ := idx4 ⟨(i 0).val / 5000, ht⟩
  refine ⟨⟨(i 0).val / 5000, ht⟩, flush4_2 _, ?_⟩
  rw [mem_blk4]
  intro a
  match a with
  | ⟨0, _⟩ =>
    show win4_2.index ⟨(i 0).val / 5000, ht⟩ 0 * 5000 ≤ (i 0).val
      ∧ (i 0).val < win4_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ 1 * 11 ≤ (i 1).val
      ∧ (i 1).val < win4_2.index ⟨(i 0).val / 5000, ht⟩ 1 * 11 + 11
    rw [e5]; omega

/-- The result array after the launch is the product of the two arrays as the launch found them. -/
theorem final4 (c : Dev nD) : (dat4 V c).arrAt 2 cfg4.N
    = Cert.Dense.prod (a := 100000) (k := 16) (n := 11) (V c main_v56) (V c main_arg6) :=
  (dat4 V c).arrAt_eq_of_cover 2 _ (fun t _ => flushed4 V c t) cover4

end Cert.KernelIdeal.Hand

end
-- ==== Proof.Region5.lean ====
/-
  Launch 5: the node update tiled by rows.  The grid has 20 points; point t reads rows 5000 t … 5000 t + 4999 of the
  summed messages [100000, 11], of the node's own projected features [100000, 11] and of the self-loop weight column
  [100000, 1], and the whole bias [11], and writes rows 5000 t … 5000 t + 4999 of the [100000, 11] result:
  messages + features * weight + bias.  An entry reads only its own row, so each written block is the block
  of the update of the whole arrays; the 20 blocks tile the result, which therefore ends as that update.
-/
import proofs.«102378_j2207613190838_1_alg».proof.Proof.Gen.KernelIdeal.Frame
import proofs.«102378_j2207613190838_1_alg».proof.Proof.LibGcnCombine
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz_5 : (![0, 0] : Fin 2 → Nat) = fun _ => 0 := funext fun a => by fin_cases a <;> rfl
theorem hz1_5 : (![0] : Fin 1 → Nat) = fun _ => 0 := funext fun a => by fin_cases a; rfl

/-- The body's arithmetic on a tile is the update of the tile's four blocks. -/
theorem pay5_eq (x0 x1 : Vec Ideal S5000x11 .f32) (x2 : Vec Ideal S5000x1 .f32) (x3 : Vec Ideal S11 .f32) :
    k5_pay1 x0 x1 x2 x3 = Cert.GcnCombine.comb (a := 5000) (n := 11) x0 x1 x2 x3 :=
  Cert.GcnCombine.tile_comb x0 x1 x2 x3 shapeCasts_S5000x11_S5000x11 shapeCasts_S5000x1_S5000x1 broadcasts_S5000x1_S5000x11
    shapeCasts_S11_S1x11 shapeCasts_S1x11_S1x11 broadcasts_S1x11_S5000x11

/-- Where each window's block sits at point t: the three row-tiled operands and the result move down 5000 rows per
    point, the bias stays. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- The messages' block at point t is rows 5000 t … of the array. -/
theorem msg5_apply (c : Dev nD) (t : Fin cfg5.N) (y : S5000x11.Idx) (i : S100000x11.Idx)
    (h0 : (i 0).val = 5000 * t.val + (y 0).val) (h1 : (i 1).val = (y 1).val) :
    (iblk5 V c 0 t : Vec Ideal S5000x11 .f32) y = (V c main_v69 : S100000x11.Idx → EReal) i := by
  obtain ⟨e0, e1, -⟩ := idx5 t
  unfold iblk5
  rw [View.read_apply]
  show V c main_v69 _ = V c main_v69 _
  congr 1
  funext a
  apply Fin.ext
  match a with
  | ⟨0, _⟩ => show win5_0.index t 0 * 5000 + 1 * (y 0).val = (i 0).val; rw [e0, h0]; omega
  | ⟨1, _⟩ => show win5_0.index t 1 * 11 + 1 * (y 1).val = (i 1).val; rw [e1, h1]; omega

/-- The features' block at point t is rows 5000 t … of the array. -/
theorem feat5_apply (c : Dev nD) (t : Fin cfg5.N) (y : S5000x11.Idx) (i : S100000x11.Idx)
    (h0 : (i 0).val = 5000 * t.val + (y 0).val) (h1 : (i 1).val = (y 1).val) :
    (iblk5 V c 1 t : Vec Ideal S5000x11 .f32) y = (V c main_v57 : S100000x11.Idx → EReal) i := by
  obtain ⟨-, -, e2, e3, -⟩ := idx5 t
  unfold iblk5
  rw [View.read_apply]
  show V c main_v57 _ = V c main_v57 _
  congr 1
  funext a
  apply Fin.ext
  match a with
  | ⟨0, _⟩ => show win5_1.index t 0 * 5000 + 1 * (y 0).val = (i 0).val; rw [e2, h0]; omega
  | ⟨1, _⟩ => show win5_1.index t 1 * 11 + 1 * (y 1).val = (i 1).val; rw [e3, h1]; omega

/-- The weight column's block at point t is rows 5000 t … of the column. -/
theorem col5_apply (c : Dev nD) (t : Fin cfg5.N) (y : S5000x1.Idx) (i : S100000x1.Idx)
    (h0 : (i 0).val = 5000 * t.val + (y 0).val) (h1 : (i 1).val = (y 1).val) :
    (iblk5 V c 2 t : Vec Ideal S5000x1 .f32) y = (V c main_v12 : S100000x1.Idx → EReal) i := by
  obtain ⟨-, -, -, -, e4, e5, -⟩ := idx5 t
  unfold iblk5
  rw [View.read_apply]
  show V c main_v12 _ = V c main_v12 _
  congr 1
  funext a
  apply Fin.ext
  match a with
  | ⟨0, _⟩ => show win5_2.index t 0 * 5000 + 1 * (y 0).val = (i 0).val; rw [e4, h0]; omega
  | ⟨1, _⟩ => show win5_2.index t 1 * 1 + 1 * (y 1).val = (i 1).val; rw [e5, h1]; omega

/-- The bias's block at every point is the whole vector. -/
theorem bias5_apply (c : Dev nD) (t : Fin cfg5.N) (y : S11.Idx) :
    (iblk5 V c 3 t : Vec Ideal S11 .f32) y = (V c main_arg7 : S11.Idx → EReal) y := by
  obtain ⟨-, -, -, -, -, -, e6, -⟩ := idx5 t
  unfold iblk5
  rw [View.read_apply]
  show V c main_arg7 _ = V c main_arg7 _
  congr 1
  funext a
  apply Fin.ext
  match a with
  | ⟨0, _⟩ => show win5_3.index t 0 * 11 + 1 * (y 0).val = (y 0).val; rw [e6]; omega

/-- What point t writes back is block t of the update of the whole arrays. -/
theorem flushed5 (c : Dev nD) (t : Fin cfg5.N) :
    (dat5 V c).flushed 4 t = ((cfg5.win 4).blk t).view.read (Elt Ideal)
      (Cert.GcnCombine.comb (a := 100000) (n := 11) (V c main_v69) (V c main_v57) (V c main_v12) (V c main_arg7)) := by
  show (cfg5.win 4).cut (grid5.coords t) ((dat5 V c).after 4 t) = _
  rw [after5_4]
  unfold out5_4
  rw [View.canon_unit_zero hz_5]
  simp only [View.ld_unit_zero (S := S5000x11) hz_5, View.ld_unit_zero (S := S5000x1) hz_5, View.ld_unit_zero (S := S11) hz1_5]
  obtain ⟨-, -, -, -, -, -, -, e7, e8⟩ := idx5 t
  funext j
  show k5_pay1 (iblk5 V c 0 t) (iblk5 V c 1 t) (iblk5 V c 2 t) (iblk5 V c 3 t) j
    = Cert.GcnCombine.comb (a := 100000) (n := 11) (V c main_v69) (V c main_v57) (V c main_v12) (V c main_arg7)
        (((cfg5.win 4).blk t).view.emb j)
  refine (congrFun (pay5_eq (iblk5 V c 0 t) (iblk5 V c 1 t) (iblk5 V c 2 t) (iblk5 V c 3 t)) j).trans ?_
  have hr : ((((cfg5.win 4).blk t).view.emb j) 0 : Fin _).val = 5000 * t.val + (j 0).val := by
    show win5_4.index t 0 * 5000 + 1 * (j 0).val = _; rw [e7]; omega
  have hq : ((((cfg5.win 4).blk t).view.emb j) 1 : Fin _).val = (j 1).val := by
    show win5_4.index t 1 * 11 + 1 * (j 1).val = _; rw [e8]; omega
  refine Cert.GcnCombine.comb_at (a := 5000) (n := 11) (N := 100000) (V c main_v69) (V c main_v57) (V c main_v12) (V c main_arg7)
    (iblk5 V c 0 t) (iblk5 V c 1 t) (iblk5 V c 2 t) (iblk5 V c 3 t) j (((cfg5.win 4).blk t).view.emb j)
    ?_ ?_ ?_ (fun y => ?_) (Fin.ext hq.symm)
  · exact msg5_apply V c t _ _ hr hq
  · exact feat5_apply V c t _ _ hr hq
  · exact col5_apply V c t _ _ hr rfl
  · exact bias5_apply V c t y

/-- An index of the result is in point t's block iff each coordinate is in the block's range on its axis. -/
theorem mem_blk5 (t : Fin cfg5.N) (i : S100000x11.Idx) :
    i ∈ ((cfg5.win 4).blk t).view.set ↔ ∀ a : Fin 2, win5_4.index t a * S5000x11.size a ≤ (i a).val
      ∧ (i a).val < win5_4.index t a * S5000x11.size a + S5000x11.size a := by
  show i ∈ ((View.whole main_v70).slice (win5_4.rect t)).set ↔ _
  rw [View.set_slice_whole, Rect.mem_set_unit]
  exact Iff.rfl

/-- Row r of the result is written by point r / 5000. -/
theorem cover5 (i : S100000x11.Idx) :
    ∃ t : Fin cfg5.N, (cfg5.win 4).flush t = true ∧ i ∈ ((cfg5.win 4).blk t).view.set := by
  have hi0 : (i 0).val < 100000 := (i 0).isLt
  have hi1 : (i 1).val < 11 := (i 1).isLt
  have hN : cfg5.N = 20 := N_5
  have ht : (i 0).val / 5000 < cfg5.N := by rw [hN]; omega
  obtain ⟨-, -, -, -, -, -, -, e7, e8⟩ := idx5 ⟨(i 0).val / 5000, ht⟩
  refine ⟨⟨(i 0).val / 5000, ht⟩, flush5_4 _, ?_⟩
  rw [mem_blk5]
  intro a
  match a with
  | ⟨0, _⟩ =>
    show win5_4.index ⟨(i 0).val / 5000, ht⟩ 0 * 5000 ≤ (i 0).val
      ∧ (i 0).val < win5_4.index ⟨(i 0).val / 5000, ht⟩ 0 * 5000 + 5000
    rw [e7]; show (i 0).val / 5000 * 5000 ≤ (i 0).val ∧ (i 0).val < (i 0).val / 5000 * 5000 + 5000; omega
  | ⟨1, _⟩ =>
    show win5_4.index ⟨(i 0).val / 5000, ht⟩ 1 * 11 ≤ (i 1).val
      ∧ (i 1).val < win5_4.index ⟨(i 0).val / 5000, ht⟩ 1 * 11 + 11
    rw [e8]; omega

/-- The result array after the launch is the update of the four arrays as the launch found them. -/
theorem final5 (c : Dev nD) : (dat5 V c).arrAt 4 cfg5.N
    = Cert.GcnCombine.comb (a := 100000) (n := 11) (V c main_v69) (V c main_v57) (V c main_v12) (V c main_arg7) :=
  (dat5 V c).arrAt_eq_of_cover 4 _ (fun t _ => flushed5 V c t) cover5

end Cert.KernelIdeal.Hand

end
-- ==== Proof.Walk.lean ====
/-
  The buffer contents at the segment boundaries, walked from the launch to the entry of the last stretch (the log-softmax): every buffer a
  later segment reads is identified with the second program's named value of the launched arguments.  A stretch of
  whole-array operations leaves the buffers it does not write; a launch leaves every buffer that is not one of its
  arrays, and its input arrays too; its output array ends as the whole-array function of its inputs (the product, or
  the node update), which is the second program's dot_general, or its add / multiply / maximum chain, index by index.
-/
import proofs.«102378_j2207613190838_1_alg».proof.Proof.Gen.KernelIdeal.Frame
import proofs.«102378_j2207613190838_1_alg».proof.Proof.RefRead
import proofs.«102378_j2207613190838_1_alg».proof.Proof.HostStages
import proofs.«102378_j2207613190838_1_alg».proof.Proof.Region0
import proofs.«102378_j2207613190838_1_alg».proof.Proof.Region1
import proofs.«102378_j2207613190838_1_alg».proof.Proof.Region2
import proofs.«102378_j2207613190838_1_alg».proof.Proof.Region3
import proofs.«102378_j2207613190838_1_alg».proof.Proof.Region4
import proofs.«102378_j2207613190838_1_alg».proof.Proof.Region5

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.ReadP

/-! ## Equal operands give equal products and equal updates -/

theorem prod_congr {a k n : ℕ} {X X' : (⟨2, ![a, k]⟩ : Shape).Idx → EReal} {Y Y' : (⟨2, ![k, n]⟩ : Shape).Idx → EReal}
    (hX : X = X') (hY : Y = Y') : Cert.Dense.prod X Y = Cert.Dense.prod X' Y' := by rw [hX, hY]

theorem combRelu_congr {a n : ℕ} {A A' H H' : (⟨2, ![a, n]⟩ : Shape).Idx → EReal} {D D' : (⟨2, ![a, 1]⟩ : Shape).Idx → EReal}
    {b b' : (⟨1, ![n]⟩ : Shape).Idx → EReal} (hA : A = A') (hH : H = H') (hD : D = D') (hb : b = b') :
    Cert.GcnCombine.combRelu A H D b = Cert.GcnCombine.combRelu A' H' D' b' := by rw [hA, hH, hD, hb]

theorem comb_congr {a n : ℕ} {A A' H H' : (⟨2, ![a, n]⟩ : Shape).Idx → EReal} {D D' : (⟨2, ![a, 1]⟩ : Shape).Idx → EReal}
    {b b' : (⟨1, ![n]⟩ : Shape).Idx → EReal} (hA : A = A') (hH : H = H') (hD : D = D') (hb : b = b') :
    Cert.GcnCombine.comb A H D b = Cert.GcnCombine.comb A' H' D' b' := by rw [hA, hH, hD, hb]

variable (m : (ℓ : Loc nD τ sig) → Buf (Elt Ideal) ℓ) (ρ : Dev nD → PrngReg) (c : Dev nD)

/-! ## The arguments as launched -/

abbrev X0 : (⟨Cert.ReferenceIdeal.S100000x512, .f32⟩ : BufTy).Contents (Elt Ideal) := m ((c : Thread nD τ).loc main_arg0)
abbrev X1 : (⟨Cert.ReferenceIdeal.S2x3200000, .i32⟩ : BufTy).Contents (Elt Ideal) := m ((c : Thread nD τ).loc main_arg1)
abbrev X2 : (⟨Cert.ReferenceIdeal.S512x32, .f32⟩ : BufTy).Contents (Elt Ideal) := m ((c : Thread nD τ).loc main_arg2)
abbrev X3 : (⟨Cert.ReferenceIdeal.S32, .f32⟩ : BufTy).Contents (Elt Ideal) := m ((c : Thread nD τ).loc main_arg3)
abbrev X4 : (⟨Cert.ReferenceIdeal.S32x16, .f32⟩ : BufTy).Contents (Elt Ideal) := m ((c : Thread nD τ).loc main_arg4)
abbrev X5 : (⟨Cert.ReferenceIdeal.S16, .f32⟩ : BufTy).Contents (Elt Ideal) := m ((c : Thread nD τ).loc main_arg5)
abbrev X6 : (⟨Cert.ReferenceIdeal.S16x11, .f32⟩ : BufTy).Contents (Elt Ideal) := m ((c : Thread nD τ).loc main_arg6)
abbrev X7 : (⟨Cert.ReferenceIdeal.S11, .f32⟩ : BufTy).Contents (Elt Ideal) := m ((c : Thread nD τ).loc main_arg7)

/-! ## Boundary 1: after the first stretch -/
theorem w1_v1 : W1 m ρ c (Proc.devRef .tc main_v1) = val_main_v1 (F := Ideal) (X1 m c) := st0_src (W0 m ρ c) (X1 m c) rfl
theorem w1_v3 : W1 m ρ c (Proc.devRef .tc main_v3) = val_main_v3 (F := Ideal) (X1 m c) := st0_dst (W0 m ρ c) (X1 m c) rfl
theorem w1_v12 : W1 m ρ c (Proc.devRef .tc main_v12) = val_main_v41 (F := Ideal) (X1 m c) := st0_degcol (W0 m ρ c) (X1 m c) rfl
theorem w1_v28 : W1 m ρ c (Proc.devRef .tc main_v28) = val_main_v34 (F := Ideal) (X1 m c) := st0_normcol (W0 m ρ c) (X1 m c) rfl
theorem w1_a0 : W1 m ρ c (Proc.devRef .tc main_arg0) = X0 m c := (keep0_a0 (W0 m ρ c)).trans rfl
theorem w1_a2 : W1 m ρ c (Proc.devRef .tc main_arg2) = X2 m c := (keep0_a2 (W0 m ρ c)).trans rfl
theorem w1_a3 : W1 m ρ c (Proc.devRef .tc main_arg3) = X3 m c := (keep0_a3 (W0 m ρ c)).trans rfl
theorem w1_a4 : W1 m ρ c (Proc.devRef .tc main_arg4) = X4 m c := (keep0_a4 (W0 m ρ c)).trans rfl
theorem w1_a5 : W1 m ρ c (Proc.devRef .tc main_arg5) = X5 m c := (keep0_a5 (W0 m ρ c)).trans rfl
theorem w1_a6 : W1 m ρ c (Proc.devRef .tc main_arg6) = X6 m c := (keep0_a6 (W0 m ρ c)).trans rfl
theorem w1_a7 : W1 m ρ c (Proc.devRef .tc main_arg7) = X7 m c := (keep0_a7 (W0 m ρ c)).trans rfl

/-! ## Boundary 2: after launch 0 -/
theorem w2_v1 : W2 m ρ c (Proc.devRef .tc main_v1) = val_main_v1 (F := Ideal) (X1 m c) := (W2_of_ne m ρ c main_v1 (by decide)).trans (w1_v1 m ρ c)
theorem w2_v3 : W2 m ρ c (Proc.devRef .tc main_v3) = val_main_v3 (F := Ideal) (X1 m c) := (W2_of_ne m ρ c main_v3 (by decide)).trans (w1_v3 m ρ c)
theorem w2_v12 : W2 m ρ c (Proc.devRef .tc main_v12) = val_main_v41 (F := Ideal) (X1 m c) := (W2_of_ne m ρ c main_v12 (by decide)).trans (w1_v12 m ρ c)
theorem w2_v28 : W2 m ρ c (Proc.devRef .tc main_v28) = val_main_v34 (F := Ideal) (X1 m c) := (W2_of_ne m ρ c main_v28 (by decide)).trans (w1_v28 m ρ c)
theorem w2_a3 : W2 m ρ c (Proc.devRef .tc main_arg3) = X3 m c := (W2_of_ne m ρ c main_arg3 (by decide)).trans (w1_a3 m ρ c)
theorem w2_a4 : W2 m ρ c (Proc.devRef .tc main_arg4) = X4 m c := (W2_of_ne m ρ c main_arg4 (by decide)).trans (w1_a4 m ρ c)
theorem w2_a5 : W2 m ρ c (Proc.devRef .tc main_arg5) = X5 m c := (W2_of_ne m ρ c main_arg5 (by decide)).trans (w1_a5 m ρ c)
theorem w2_a6 : W2 m ρ c (Proc.devRef .tc main_arg6) = X6 m c := (W2_of_ne m ρ c main_arg6 (by decide)).trans (w1_a6 m ρ c)
theorem w2_a7 : W2 m ρ c (Proc.devRef .tc main_arg7) = X7 m c := (W2_of_ne m ρ c main_arg7 (by decide)).trans (w1_a7 m ρ c)
/-- Layer 1's projected features: the row-tiled product is the whole product. -/
theorem w2_v29 : W2 m ρ c (Proc.devRef .tc main_v29) = val_main_v11 (F := Ideal) (X0 m c) (X2 m c) :=
  (W2_arr m ρ c 2).trans ((final0 (V1 m ρ) c).trans ((prod_congr (w1_a0 m ρ c) (w1_a2 m ρ c)).trans
    (Cert.Dense.dotGeneral_eq_prod Cert.ReferenceIdeal.dot_S100000x512_S512x32_S100000x32_1_0_0_1_n_n rfl rfl rfl rfl rfl rfl (X0 m c) (X2 m c)).symm))

/-! ## Boundary 3: after stretch 1 -/
theorem w3_v1 : W3 m ρ c (Proc.devRef .tc main_v1) = val_main_v1 (F := Ideal) (X1 m c) := (keep1_v1 (W2 m ρ c)).trans (w2_v1 m ρ c)
theorem w3_v3 : W3 m ρ c (Proc.devRef .tc main_v3) = val_main_v3 (F := Ideal) (X1 m c) := (keep1_v3 (W2 m ρ c)).trans (w2_v3 m ρ c)
theorem w3_v12 : W3 m ρ c (Proc.devRef .tc main_v12) = val_main_v41 (F := Ideal) (X1 m c) := (keep1_v12 (W2 m ρ c)).trans (w2_v12 m ρ c)
theorem w3_v28 : W3 m ρ c (Proc.devRef .tc main_v28) = val_main_v34 (F := Ideal) (X1 m c) := (keep1_v28 (W2 m ρ c)).trans (w2_v28 m ρ c)
theorem w3_v29 : W3 m ρ c (Proc.devRef .tc main_v29) = val_main_v11 (F := Ideal) (X0 m c) (X2 m c) := (keep1_v29 (W2 m ρ c)).trans (w2_v29 m ρ c)
theorem w3_a3 : W3 m ρ c (Proc.devRef .tc main_arg3) = X3 m c := (keep1_a3 (W2 m ρ c)).trans (w2_a3 m ρ c)
theorem w3_a4 : W3 m ρ c (Proc.devRef .tc main_arg4) = X4 m c := (keep1_a4 (W2 m ρ c)).trans (w2_a4 m ρ c)
theorem w3_a5 : W3 m ρ c (Proc.devRef .tc main_arg5) = X5 m c := (keep1_a5 (W2 m ρ c)).trans (w2_a5 m ρ c)
theorem w3_a6 : W3 m ρ c (Proc.devRef .tc main_arg6) = X6 m c := (keep1_a6 (W2 m ρ c)).trans (w2_a6 m ρ c)
theorem w3_a7 : W3 m ρ c (Proc.devRef .tc main_arg7) = X7 m c := (keep1_a7 (W2 m ρ c)).trans (w2_a7 m ρ c)
/-- Layer 1's summed messages. -/
theorem w3_v41 : W3 m ρ c (Proc.devRef .tc main_v41) = val_main_v39 (F := Ideal) (X0 m c) (X1 m c) (X2 m c) :=
  st1_agg (W2 m ρ c) (X0 m c) (X1 m c) (X2 m c) (w2_v1 m ρ c) (w2_v3 m ρ c) (w2_v28 m ρ c) (w2_v29 m ρ c)

/-! ## Boundary 4: after launch 1 -/
theorem w4_v1 : W4 m ρ c (Proc.devRef .tc main_v1) = val_main_v1 (F := Ideal) (X1 m c) := (W4_of_ne m ρ c main_v1 (by decide)).trans (w3_v1 m ρ c)
theorem w4_v3 : W4 m ρ c (Proc.devRef .tc main_v3) = val_main_v3 (F := Ideal) (X1 m c) := (W4_of_ne m ρ c main_v3 (by decide)).trans (w3_v3 m ρ c)
theorem w4_v12 : W4 m ρ c (Proc.devRef .tc main_v12) = val_main_v41 (F := Ideal) (X1 m c) :=
  ((W4_arr m ρ c 2).trans (((dat1 (V3 m ρ) c).arrAt_in 2 rfl _).trans (A_eq1 (V3 m ρ) c 2))).trans (w3_v12 m ρ c)
theorem w4_v28 : W4 m ρ c (Proc.devRef .tc main_v28) = val_main_v34 (F := Ideal) (X1 m c) := (W4_of_ne m ρ c main_v28 (by decide)).trans (w3_v28 m ρ c)
theorem w4_a4 : W4 m ρ c (Proc.devRef .tc main_arg4) = X4 m c := (W4_of_ne m ρ c main_arg4 (by decide)).trans (w3_a4 m ρ c)
theorem w4_a5 : W4 m ρ c (Proc.devRef .tc main_arg5) = X5 m c := (W4_of_ne m ρ c main_arg5 (by decide)).trans (w3_a5 m ρ c)
theorem w4_a6 : W4 m ρ c (Proc.devRef .tc main_arg6) = X6 m c := (W4_of_ne m ρ c main_arg6 (by decide)).trans (w3_a6 m ρ c)
theorem w4_a7 : W4 m ρ c (Proc.devRef .tc main_arg7) = X7 m c := (W4_of_ne m ρ c main_arg7 (by decide)).trans (w3_a7 m ρ c)
/-- Layer 1's output: the row-tiled rectified update is the whole-array one. -/
theorem w4_v42 : W4 m ρ c (Proc.devRef .tc main_v42) = val_main_v48 (F := Ideal) (X0 m c) (X1 m c) (X2 m c) (X3 m c) :=
  (W4_arr m ρ c 4).trans ((final1 (V3 m ρ) c).trans ((combRelu_congr (w3_v41 m ρ c) (w3_v29 m ρ c) (w3_v12 m ρ c) (w3_a3 m ρ c)).trans
    (Cert.GcnCombine.host_combRelu (a := 100000) (n := 32) (val_main_v39 (F := Ideal) (X0 m c) (X1 m c) (X2 m c)) (val_main_v11 (F := Ideal) (X0 m c) (X2 m c))
      (val_main_v41 (F := Ideal) (X1 m c)) (X3 m c) Cert.ReferenceIdeal.Facts₀.bcast_S100000x1_S100000x32_0_1 Cert.ReferenceIdeal.Facts₀.bcast_S32_S1x32_1
      Cert.ReferenceIdeal.Facts₀.bcast_S1x32_S100000x32_0_1 Cert.ReferenceIdeal.Facts₀.bcast_S_S100000x32).symm))

/-! ## Boundary 5: after launch 2 -/
theorem w5_v1 : W5 m ρ c (Proc.devRef .tc main_v1) = val_main_v1 (F := Ideal) (X1 m c) := (W5_of_ne m ρ c main_v1 (by decide)).trans (w4_v1 m ρ c)
theorem w5_v3 : W5 m ρ c (Proc.devRef .tc main_v3) = val_main_v3 (F := Ideal) (X1 m c) := (W5_of_ne m ρ c main_v3 (by decide)).trans (w4_v3 m ρ c)
theorem w5_v12 : W5 m ρ c (Proc.devRef .tc main_v12) = val_main_v41 (F := Ideal) (X1 m c) := (W5_of_ne m ρ c main_v12 (by decide)).trans (w4_v12 m ρ c)
theorem w5_v28 : W5 m ρ c (Proc.devRef .tc main_v28) = val_main_v34 (F := Ideal) (X1 m c) := (W5_of_ne m ρ c main_v28 (by decide)).trans (w4_v28 m ρ c)
theorem w5_a5 : W5 m ρ c (Proc.devRef .tc main_arg5) = X5 m c := (W5_of_ne m ρ c main_arg5 (by decide)).trans (w4_a5 m ρ c)
theorem w5_a6 : W5 m ρ c (Proc.devRef .tc main_arg6) = X6 m c := (W5_of_ne m ρ c main_arg6 (by decide)).trans (w4_a6 m ρ c)
theorem w5_a7 : W5 m ρ c (Proc.devRef .tc main_arg7) = X7 m c := (W5_of_ne m ρ c main_arg7 (by decide)).trans (w4_a7 m ρ c)
/-- Layer 2's projected features. -/
theorem w5_v43 : W5 m ρ c (Proc.devRef .tc main_v43) = val_main_v49 (F := Ideal) (X0 m c) (X1 m c) (X2 m c) (X3 m c) (X4 m c) :=
  (W5_arr m ρ c 2).trans ((final2 (V4 m ρ) c).trans ((prod_congr (w4_v42 m ρ c) (w4_a4 m ρ c)).trans
    (Cert.Dense.dotGeneral_eq_prod Cert.ReferenceIdeal.dot_S100000x32_S32x16_S100000x16_1_0_0_1_n_n rfl rfl rfl rfl rfl rfl _ (X4 m c)).symm))

/-! ## Boundary 6: after stretch 3 -/
theorem w6_v1 : W6 m ρ c (Proc.devRef .tc main_v1) = val_main_v1 (F := Ideal) (X1 m c) := (keep3_v1 (W5 m ρ c)).trans (w5_v1 m ρ c)
theorem w6_v3 : W6 m ρ c (Proc.devRef .tc main_v3) = val_main_v3 (F := Ideal) (X1 m c) := (keep3_v3 (W5 m ρ c)).trans (w5_v3 m ρ c)
theorem w6_v12 : W6 m ρ c (Proc.devRef .tc main_v12) = val_main_v41 (F := Ideal) (X1 m c) := (keep3_v12 (W5 m ρ c)).trans (w5_v12 m ρ c)
theorem w6_v28 : W6 m ρ c (Proc.devRef .tc main_v28) = val_main_v34 (F := Ideal) (X1 m c) := (keep3_v28 (W5 m ρ c)).trans (w5_v28 m ρ c)
theorem w6_v43 : W6 m ρ c (Proc.devRef .tc main_v43) = val_main_v49 (F := Ideal) (X0 m c) (X1 m c) (X2 m c) (X3 m c) (X4 m c) := (keep3_v43 (W5 m ρ c)).trans (w5_v43 m ρ c)
theorem w6_a5 : W6 m ρ c (Proc.devRef .tc main_arg5) = X5 m c := (keep3_a5 (W5 m ρ c)).trans (w5_a5 m ρ c)
theorem w6_a6 : W6 m ρ c (Proc.devRef .tc main_arg6) = X6 m c := (keep3_a6 (W5 m ρ c)).trans (w5_a6 m ρ c)
theorem w6_a7 : W6 m ρ c (Proc.devRef .tc main_arg7) = X7 m c := (keep3_a7 (W5 m ρ c)).trans (w5_a7 m ρ c)
/-- Layer 2's summed messages. -/
theorem w6_v55 : W6 m ρ c (Proc.devRef .tc main_v55) = val_main_v77 (F := Ideal) (X0 m c) (X1 m c) (X2 m c) (X3 m c) (X4 m c) :=
  st3_agg (W5 m ρ c) (X0 m c) (X1 m c) (X2 m c) (X3 m c) (X4 m c) (w5_v1 m ρ c) (w5_v3 m ρ c)
    ((w5_v28 m ρ c).trans (normcol2 (X1 m c)).symm) (w5_v43 m ρ c)

/-! ## Boundary 7: after launch 3 -/
theorem w7_v1 : W7 m ρ c (Proc.devRef .tc main_v1) = val_main_v1 (F := Ideal) (X1 m c) := (W7_of_ne m ρ c main_v1 (by decide)).trans (w6_v1 m ρ c)
theorem w7_v3 : W7 m ρ c (Proc.devRef .tc main_v3) = val_main_v3 (F := Ideal) (X1 m c) := (W7_of_ne m ρ c main_v3 (by decide)).trans (w6_v3 m ρ c)
theorem w7_v12 : W7 m ρ c (Proc.devRef .tc main_v12) = val_main_v41 (F := Ideal) (X1 m c) :=
  ((W7_arr m ρ c 2).trans (((dat3 (V6 m ρ) c).arrAt_in 2 rfl _).trans (A_eq3 (V6 m ρ) c 2))).trans (w6_v12 m ρ c)
theorem w7_v28 : W7 m ρ c (Proc.devRef .tc main_v28) = val_main_v34 (F := Ideal) (X1 m c) := (W7_of_ne m ρ c main_v28 (by decide)).trans (w6_v28 m ρ c)
theorem w7_a6 : W7 m ρ c (Proc.devRef .tc main_arg6) = X6 m c := (W7_of_ne m ρ c main_arg6 (by decide)).trans (w6_a6 m ρ c)
theorem w7_a7 : W7 m ρ c (Proc.devRef .tc main_arg7) = X7 m c := (W7_of_ne m ρ c main_arg7 (by decide)).trans (w6_a7 m ρ c)
/-- Layer 2's output. -/
theorem w7_v56 : W7 m ρ c (Proc.devRef .tc main_v56) = val_main_v86 (F := Ideal) (X0 m c) (X1 m c) (X2 m c) (X3 m c) (X4 m c) (X5 m c) :=
  (W7_arr m ρ c 4).trans ((final3 (V6 m ρ) c).trans ((combRelu_congr (w6_v55 m ρ c) (w6_v43 m ρ c) ((w6_v12 m ρ c).trans (degcol2 (X1 m c)).symm) (w6_a5 m ρ c)).trans
    (Cert.GcnCombine.host_combRelu (a := 100000) (n := 16) (val_main_v77 (F := Ideal) (X0 m c) (X1 m c) (X2 m c) (X3 m c) (X4 m c)) (val_main_v49 (F := Ideal) (X0 m c) (X1 m c) (X2 m c) (X3 m c) (X4 m c))
      (val_main_v79 (F := Ideal) (X1 m c)) (X5 m c) Cert.ReferenceIdeal.Facts₀.bcast_S100000x1_S100000x16_0_1 Cert.ReferenceIdeal.Facts₀.bcast_S16_S1x16_1
      Cert.ReferenceIdeal.Facts₀.bcast_S1x16_S100000x16_0_1 Cert.ReferenceIdeal.Facts₀.bcast_S_S100000x16).symm))

/-! ## Boundary 8: after launch 4 -/
theorem w8_v1 : W8 m ρ c (Proc.devRef .tc main_v1) = val_main_v1 (F := Ideal) (X1 m c) := (W8_of_ne m ρ c main_v1 (by decide)).trans (w7_v1 m ρ c)
theorem w8_v3 : W8 m ρ c (Proc.devRef .tc main_v3) = val_main_v3 (F := Ideal) (X1 m c) := (W8_of_ne m ρ c main_v3 (by decide)).trans (w7_v3 m ρ c)
theorem w8_v12 : W8 m ρ c (Proc.devRef .tc main_v12) = val_main_v41 (F := Ideal) (X1 m c) := (W8_of_ne m ρ c main_v12 (by decide)).trans (w7_v12 m ρ c)
theorem w8_v28 : W8 m ρ c (Proc.devRef .tc main_v28) = val_main_v34 (F := Ideal) (X1 m c) := (W8_of_ne m ρ c main_v28 (by decide)).trans (w7_v28 m ρ c)
theorem w8_a7 : W8 m ρ c (Proc.devRef .tc main_arg7) = X7 m c := (W8_of_ne m ρ c main_arg7 (by decide)).trans (w7_a7 m ρ c)
/-- Layer 3's projected features. -/
theorem w8_v57 : W8 m ρ c (Proc.devRef .tc main_v57) = val_main_v87 (F := Ideal) (X0 m c) (X1 m c) (X2 m c) (X3 m c) (X4 m c) (X5 m c) (X6 m c) :=
  (W8_arr m ρ c 2).trans ((final4 (V7 m ρ) c).trans ((prod_congr (w7_v56 m ρ c) (w7_a6 m ρ c)).trans
    (Cert.Dense.dotGeneral_eq_prod Cert.ReferenceIdeal.dot_S100000x16_S16x11_S100000x11_1_0_0_1_n_n rfl rfl rfl rfl rfl rfl _ (X6 m c)).symm))

/-! ## Boundary 9: after stretch 5 -/
theorem w9_v12 : W9 m ρ c (Proc.devRef .tc main_v12) = val_main_v41 (F := Ideal) (X1 m c) := (keep5_v12 (W8 m ρ c)).trans (w8_v12 m ρ c)
theorem w9_v57 : W9 m ρ c (Proc.devRef .tc main_v57) = val_main_v87 (F := Ideal) (X0 m c) (X1 m c) (X2 m c) (X3 m c) (X4 m c) (X5 m c) (X6 m c) := (keep5_v57 (W8 m ρ c)).trans (w8_v57 m ρ c)
theorem w9_a7 : W9 m ρ c (Proc.devRef .tc main_arg7) = X7 m c := (keep5_a7 (W8 m ρ c)).trans (w8_a7 m ρ c)
/-- Layer 3's summed messages. -/
theorem w9_v69 : W9 m ρ c (Proc.devRef .tc main_v69) = val_main_v115 (F := Ideal) (X0 m c) (X1 m c) (X2 m c) (X3 m c) (X4 m c) (X5 m c) (X6 m c) :=
  st5_agg (W8 m ρ c) (X0 m c) (X1 m c) (X2 m c) (X3 m c) (X4 m c) (X5 m c) (X6 m c) (w8_v1 m ρ c) (w8_v3 m ρ c)
    ((w8_v28 m ρ c).trans (normcol3 (X1 m c)).symm) (w8_v57 m ρ c)

/-! ## Boundary 10: after the last launch -/
/-- Layer 3's output (not rectified). -/
theorem w10_v70 : W10 m ρ c (Proc.devRef .tc main_v70) = val_main_v123 (F := Ideal) (X0 m c) (X1 m c) (X2 m c) (X3 m c) (X4 m c) (X5 m c) (X6 m c) (X7 m c) :=
  (W10_arr m ρ c 4).trans ((final5 (V9 m ρ) c).trans ((comb_congr (w9_v69 m ρ c) (w9_v57 m ρ c) ((w9_v12 m ρ c).trans (degcol3 (X1 m c)).symm) (w9_a7 m ρ c)).trans
    (Cert.GcnCombine.host_comb (a := 100000) (n := 11) (val_main_v115 (F := Ideal) (X0 m c) (X1 m c) (X2 m c) (X3 m c) (X4 m c) (X5 m c) (X6 m c)) (val_main_v87 (F := Ideal) (X0 m c) (X1 m c) (X2 m c) (X3 m c) (X4 m c) (X5 m c) (X6 m c))
      (val_main_v117 (F := Ideal) (X1 m c)) (X7 m c) Cert.ReferenceIdeal.Facts₀.bcast_S100000x1_S100000x11_0_1 Cert.ReferenceIdeal.Facts₀.bcast_S11_S1x11_1
      Cert.ReferenceIdeal.Facts₀.bcast_S1x11_S100000x11_0_1).symm))

end Cert.KernelIdeal.Hand

end
-- ==== Proof.TailBridge.lean ====
/-
  The last stretch of both programs is the same row-wise log-softmax, applied to layer 3's output.  It is not opened:
  the two stretches are the same operations in the same order on buffers of the same types, so from valuations that
  agree on the input buffer they leave equal contents in the result buffer.
-/
import proofs.«102378_j2207613190838_1_alg».proof.Proof.Gen.KernelIdeal.Launch
import proofs.«102378_j2207613190838_1_alg».proof.Proof.RefStages
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

/-- Equal inputs, equal log-softmax. -/
theorem tail_congr (WK : Valuation Cert.KernelIdeal.τ Cert.KernelIdeal.sig (Elt Ideal))
    (WR : Valuation Cert.ReferenceIdeal.τ Cert.ReferenceIdeal.sig (Elt Ideal))
    (h : WK (Proc.devRef .tc Cert.KernelIdeal.main_v70) = WR (Proc.devRef .tc Cert.ReferenceIdeal.main_v123)) :
    after (Cert.KernelIdeal.Gen.hostOps6 (F := Ideal)) WK (Proc.devRef .tc Cert.KernelIdeal.main_v71)
      = after Cert.ReferenceIdeal.Hand.opsLsm WR (Proc.devRef .tc Cert.ReferenceIdeal.main_v124) := by
  simp only [Cert.ReferenceIdeal.Hand.opsLsm, Cert.ReferenceIdeal.ValueP.ops, List.drop_succ_cons, List.drop_zero]
  after_results_simp
  rw [h]

end Cert.Bridge

end
-- ==== Proof.lean ====
/-
  A three-layer graph convolution with a row-wise log-softmax, computed two ways.

  Both programs take node features x : [100000, 512], an edge list [2, 3200000] and three weight matrices with
  their biases.  With dis = (in-degree + 1)^(-1/2), each layer maps node features h to

      scatter-add over targets of ((h W)[source] * dis[source] * dis[target])  +  (h W) * dis * dis  +  b,

  rectified in the first two layers; the result is the row-wise log-softmax of the third layer's output.

  The first program computes each product h W and each node update (messages + features * weight + bias, rectified or
  not) in a launch tiled by blocks of 5000 rows, with the operands of the product rounded to bfloat16 — a change of
  format, which on the extended reals is the identity — and does the gathers, scatters and the log-softmax on whole
  arrays.  The second program does everything on whole arrays.  On the extended reals:
    * a row-tiled product is the whole product, because an entry of a product reads only its own row of the left
      operand, and the matrix unit's product into a zero accumulator and the whole-array dot_general are the same sum
      over the contracted axis;
    * a row-tiled node update is the whole-array update, entry by entry, the grouping (messages + features * weight)
      + bias being the same in both programs;
    * a vector laid out as a column is the same array whether written as a reshape or as a broadcast_in_dim;
    * every other operation (slices, index normalisation, gathers, scatter-adds, reciprocal square root, and the whole
      log-softmax stretch) is the same operation applied to equal operands, and is never opened.
  No law that needs finite operands is used, so the precondition is not opened.

  The idealization rewrote no operation of the first program, so the third claim is trivial; the first program's two
  frames are the generated ones, the second program's frame is its run with the result dropped.
-/
import proofs.«102378_j2207613190838_1_alg».proof.Defs
import proofs.«102378_j2207613190838_1_alg».proof.Proof.Gen.Kernel
import proofs.«102378_j2207613190838_1_alg».proof.Proof.Gen.Kernel.Skeleton
import proofs.«102378_j2207613190838_1_alg».proof.Proof.Gen.Kernel.Launch
import proofs.«102378_j2207613190838_1_alg».proof.Proof.Gen.Kernel.Points
import proofs.«102378_j2207613190838_1_alg».proof.Proof.Gen.Kernel.Frame
import proofs.«102378_j2207613190838_1_alg».proof.Proof.Gen.KernelIdeal
import proofs.«102378_j2207613190838_1_alg».proof.Proof.Gen.KernelIdeal.Skeleton
import proofs.«102378_j2207613190838_1_alg».proof.Proof.Gen.KernelIdeal.Launch
import proofs.«102378_j2207613190838_1_alg».proof.Proof.Gen.KernelIdeal.Points
import proofs.«102378_j2207613190838_1_alg».proof.Proof.Gen.KernelIdeal.Frame
import proofs.«102378_j2207613190838_1_alg».proof.Proof.Gen.ReferenceIdeal
import proofs.«102378_j2207613190838_1_alg».proof.Proof.Gen.Pre_finite_inputs
import proofs.«102378_j2207613190838_1_alg».proof.Proof.RefRead
import proofs.«102378_j2207613190838_1_alg».proof.Proof.RefStages
import proofs.«102378_j2207613190838_1_alg».proof.Proof.KRun
import proofs.«102378_j2207613190838_1_alg».proof.Proof.Walk
import proofs.«102378_j2207613190838_1_alg».proof.Proof.TailBridge
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The whole-array program runs and leaves its arguments unchanged: its run with the result dropped. -/
theorem frame_ri : Cert.frame_ReferenceIdeal := fun m ρ _ =>
  (θ_run Cert.ReferenceIdeal.defs _ _).mono (fun _ h c => (h c).2) (Cert.ReferenceIdeal.Hand.run m ρ)

/-- From memories agreeing on the arguments both programs end with the same result array: layer 3's output is the same
    array in both (the tiled program's, walked back through its segments, is the whole-array program's named value of
    the arguments), and both then apply the same log-softmax. -/
theorem algebraic : Cert.algebraic_KernelIdeal_ReferenceIdeal := by
  intro m ρ m' ρ' _ hagree
  refine ⟨fun c => Cert.KernelIdeal.Gen.W11 m ρ c (Proc.devRef .tc Cert.KernelIdeal.main_v71),
    Cert.KernelIdeal.Hand.run_value m ρ, ?_⟩
  refine (θ_run Cert.ReferenceIdeal.defs _ _).mono (fun _ h c => ⟨(h c).1.trans ?_, (h c).2⟩)
    (Cert.ReferenceIdeal.Hand.run m' ρ')
  obtain ⟨h0, h1, h2, h3, h4, h5, h6, h7⟩ := hagree c
  refine (Cert.Bridge.tail_congr (Cert.KernelIdeal.Gen.W10 m ρ c)
    (Cert.ReferenceIdeal.Hand.preLsm (Idealize.ShloMosaic.StableHlo.launchContents m' c)) ?_).symm
  refine (Cert.KernelIdeal.Hand.w10_v70 m ρ c).trans (Eq.trans ?_ (Cert.ReferenceIdeal.Hand.pre_v123 _).symm)
  show _ = Cert.ReferenceIdeal.ReadP.val_main_v123 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
